-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384x64 : Shape := ⟨2, ![16384, 64]⟩
abbrev S4096x64 : Shape := ⟨2, ![4096, 64]⟩
abbrev S64 : Shape := ⟨1, ![64]⟩
abbrev S4096x1 : Shape := ⟨2, ![4096, 1]⟩
abbrev S1 : Shape := ⟨1, ![1]⟩
abbrev S64x4096 : Shape := ⟨2, ![64, 4096]⟩
abbrev S4096 : Shape := ⟨1, ![4096]⟩
abbrev S64x1 : Shape := ⟨2, ![64, 1]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S4096x1 : S_.BroadcastsInDim S4096x1 (![] : Fin 0 → Fin S4096x1.rank)
  reducesTo_S4096x1_S_d0_1 : S4096x1.ReducesTo [0, 1] S_
  bcast_S_S1 : S_.BroadcastsInDim S1 (![] : Fin 0 → Fin S1.rank)
  reducesTo_S1_S_d0 : S1.ReducesTo [0] S_
  bcast_S_S64x4096 : S_.BroadcastsInDim S64x4096 (![] : Fin 0 → Fin S64x4096.rank)
  reducesTo_S64x4096_S_d0_1 : S64x4096.ReducesTo [0, 1] S_
  bcast_S_S4096 : S_.BroadcastsInDim S4096 (![] : Fin 0 → Fin S4096.rank)
  reducesTo_S4096_S_d0 : S4096.ReducesTo [0] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg7 : FVec F S4096 .f32) (main_arg8 : FVec F S64x1 .f32) (main_arg9 : FVec F S1 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S4096x1 .f32) (main_arg5 : FVec F S1 .f32) (main_arg6 : FVec F S64x4096 .f32) (main_arg7 : FVec F S4096 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x4096 .f32) (main_arg1 : FVec F S16384x64 .f32) (main_arg2 : FVec F S4096x64 .f32) (main_arg3 : FVec F S64 .f32) (main_arg4 : FVec F S4096x1 .f32) (main_arg5 : FVec F S1 .f32) (main_arg6 : FVec F S64x4096 .f32) (main_arg7 : FVec F S4096 .f32) (main_arg8 : FVec F S64x1 .f32) (main_arg9 : FVec F S1 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S16384x4096 : Shape := ⟨2, ![16384, 4096]⟩
abbrev S16384x64 : Shape := ⟨2, ![16384, 64]⟩
abbrev S4096x64 : Shape := ⟨2, ![4096, 64]⟩
abbrev S64 : Shape := ⟨1, ![64]⟩
abbrev S4096x1 : Shape := ⟨2, ![4096, 1]⟩
abbrev S1 : Shape := ⟨1, ![1]⟩
abbrev S64x4096 : Shape := ⟨2, ![64, 4096]⟩
abbrev S4096 : Shape := ⟨1, ![4096]⟩
abbrev S64x1 : Shape := ⟨2, ![64, 1]⟩
abbrev S_ : Shape := ⟨0, ![]⟩
abbrev S4096x128 : Shape := ⟨2, ![4096, 128]⟩
abbrev S1x128 : Shape := ⟨2, ![1, 128]⟩
abbrev S2 : Shape := ⟨1, ![2]⟩
abbrev S1x4096 : Shape := ⟨2, ![1, 4096]⟩
abbrev S1x1 : Shape := ⟨2, ![1, 1]⟩
abbrev S512x4096 : Shape := ⟨2, ![512, 4096]⟩
abbrev S512x64 : Shape := ⟨2, ![512, 64]⟩
abbrev S512x128 : Shape := ⟨2, ![512, 128]⟩
abbrev S512x1 : Shape := ⟨2, ![512, 1]⟩
abbrev S512x512 : Shape := ⟨2, ![512, 512]⟩
abbrev S64x512 : Shape := ⟨2, ![64, 512]⟩
abbrev S1x512 : Shape := ⟨2, ![1, 512]⟩
abbrev S512 : Shape := ⟨1, ![512]⟩

abbrev nBuf : Space → Nat
  | .hbm => 38
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S16384x64, .f32⟩
  | .hbm, ⟨2, _⟩ => ⟨S4096x64, .f32⟩
  | .hbm, ⟨3, _⟩ => ⟨S64, .f32⟩
  | .hbm, ⟨4, _⟩ => ⟨S4096x1, .f32⟩
  | .hbm, ⟨5, _⟩ => ⟨S1, .f32⟩
  | .hbm, ⟨6, _⟩ => ⟨S64x4096, .f32⟩
  | .hbm, ⟨7, _⟩ => ⟨S4096, .f32⟩
  | .hbm, ⟨8, _⟩ => ⟨S64x1, .f32⟩
  | .hbm, ⟨9, _⟩ => ⟨S1, .f32⟩
  | .hbm, ⟨10, _⟩ => ⟨S_, .f32⟩
  | .hbm, ⟨11, _⟩ => ⟨S4096x128, .f32⟩
  | .hbm, ⟨12, _⟩ => ⟨S_, .i32⟩
  | .hbm, ⟨13, _⟩ => ⟨S1, .i32⟩
  | .hbm, ⟨14, _⟩ => ⟨S4096x128, .f32⟩
  | .hbm, ⟨15, _⟩ => ⟨S4096, .f32⟩
  | .hbm, ⟨16, _⟩ => ⟨S_, .i32⟩
  | .hbm, ⟨17, _⟩ => ⟨S1, .i32⟩
  | .hbm, ⟨18, _⟩ => ⟨S4096x128, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S_, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S1x4096, .f32⟩
  | .hbm, ⟨35, _⟩ => ⟨S1x1, .f32⟩
  | .hbm, ⟨36, _⟩ => ⟨S1x1, .f32⟩
  | .hbm, ⟨37, _⟩ => ⟨S1, .f32⟩
  | .local _ .vmem, ⟨0, _⟩ => ⟨S512x4096, .f32⟩
  | .local _ .vmem, ⟨1, _⟩ => ⟨S512x4096, .f32⟩
  | .local _ .vmem, ⟨2, _⟩ => ⟨S512x64, .f32⟩
  | .local _ .vmem, ⟨3, _⟩ => ⟨S512x64, .f32⟩
  | .local _ .vmem, ⟨4, _⟩ => ⟨S4096x128, .f32⟩
  | .local _ .vmem, ⟨5, _⟩ => ⟨S1x128, .f32⟩
  | .local _ .vmem, ⟨6, _⟩ => ⟨S64x4096, .f32⟩
  | .local _ .vmem, ⟨7, _⟩ => ⟨S1x4096, .f32⟩
  | .local _ .vmem, ⟨8, _⟩ => ⟨S64x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_c_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![32], ![false]⟩

def k0_mult1 : BitVec 32 :=
  let c0_i32_14 : BitVec 32 := 0#32
  let c512_i32 : BitVec 32 := 512#32
  let v33 : BitVec 32 := Scalar.muli c0_i32_14 c512_i32
  v33
def k0_off1 (c0_i32_14 : BitVec 32) : Fin 2 → Nat :=
  let c0_15 : Index := 0#32
  let c512_i32 : BitVec 32 := 512#32
  let v33 : BitVec 32 := Scalar.muli c0_i32_14 c512_i32
  let v34 : BitVec 32 := v33
  let v35 : Index := Scalar.indexCast v34
  ![0, v35.toNat]
def k0_off2 (c0_i32_14 : BitVec 32) : Fin 2 → Nat :=
  let c0_16 : Index := 0#32
  let c512_i32 : BitVec 32 := 512#32
  let v33 : BitVec 32 := Scalar.muli c0_i32_14 c512_i32
  let v34 : BitVec 32 := v33
  let v37 : Index := Scalar.indexCast v34
  ![0, v37.toNat]
def k0_off3 (c0_i32_14 : BitVec 32) : Fin 2 → Nat :=
  let c0_17 : Index := 0#32
  let c512_i32 : BitVec 32 := 512#32
  let v33 : BitVec 32 := Scalar.muli c0_i32_14 c512_i32
  let v34 : BitVec 32 := v33
  let v40 : Index := Scalar.indexCast v34
  ![0, v40.toNat]
def k0_mult2 : BitVec 32 :=
  let c1_i32 : BitVec 32 := 1#32
  let c512_i32_20 : BitVec 32 := 512#32
  let v51 : BitVec 32 := Scalar.muli c1_i32 c512_i32_20
  v51
def k0_mult3 : BitVec 32 :=
  let c2_i32 : BitVec 32 := 2#32
  let c512_i32_26 : BitVec 32 := 512#32
  let v69 : BitVec 32 := Scalar.muli c2_i32 c512_i32_26
  v69
def k0_mult4 : BitVec 32 :=
  let c3_i32 : BitVec 32 := 3#32
  let c512_i32_32 : BitVec 32 := 512#32
  let v87 : BitVec 32 := Scalar.muli c3_i32 c512_i32_32
  v87
def k0_mult5 : BitVec 32 :=
  let c4_i32 : BitVec 32 := 4#32
  let c512_i32_38 : BitVec 32 := 512#32
  let v105 : BitVec 32 := Scalar.muli c4_i32 c512_i32_38
  v105
def k0_mult6 : BitVec 32 :=
  let c5_i32 : BitVec 32 := 5#32
  let c512_i32_44 : BitVec 32 := 512#32
  let v123 : BitVec 32 := Scalar.muli c5_i32 c512_i32_44
  v123
def k0_mult7 : BitVec 32 :=
  let c6_i32 : BitVec 32 := 6#32
  let c512_i32_50 : BitVec 32 := 512#32
  let v141 : BitVec 32 := Scalar.muli c6_i32 c512_i32_50
  v141
def k0_mult8 : BitVec 32 :=
  let c7_i32 : BitVec 32 := 7#32
  let c512_i32_56 : BitVec 32 := 512#32
  let v159 : BitVec 32 := Scalar.muli c7_i32 c512_i32_56
  v159
def k0_cond2 (i : grid0.Coords) : BitVec 1 :=
  let arg0 : BitVec 32 := BitVec.ofNat 32 (i 0).val
  let c31_i32 : BitVec 32 := 31#32
  let v215 : BitVec 1 := Scalar.cmpi .eq arg0 c31_i32
  let v216 : BitVec 32 := Scalar.extui v215
  let c0_i32_77 : BitVec 32 := 0#32
  let v217 : BitVec 1 := Scalar.cmpi .ne v216 c0_i32_77
  v217

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  bcast_S_S4096x128 : S_.BroadcastsInDim S4096x128 (![] : Fin 0 → Fin S4096x128.rank)
  bcast_S_S1 : S_.BroadcastsInDim S1 (![] : Fin 0 → Fin S1.rank)
  shapeCasts_S4096x1_S4096 : S4096x1.ShapeCasts S4096
  bcast_S_S1x128 : S_.BroadcastsInDim S1x128 (![] : Fin 0 → Fin S1x128.rank)
  concatenates_S1_S1_S2_d0 : Shape.Concatenates [S1, S1] S2 0
  shapeCasts_S1_S_ : S1.ShapeCasts S_
  shapeCasts_S4096_S1x4096 : S4096.ShapeCasts S1x4096
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S512x128_o0_0_S512x64 : S512x128.Slices ![0, 0] S512x64
  slices_S512x128_o0_64_S512x1 : S512x128.Slices ![0, 64] S512x1
  inb_S512x64_S512x64_0_0 : ∀ a, (![0, 0] : Fin 2 → Nat) a + S512x64.size a ≤ S512x64.size a
  h_S512x64 : 0 < S512x64.numel
  broadcasts_S512x1_S512x64 : S512x1.Broadcasts S512x64
  inb_S64x1_S64x1_0_0 : ∀ a, (![0, 0] : Fin 2 → Nat) a + S64x1.size a ≤ S64x1.size a
  h_S64x1 : 0 < S64x1.numel
  broadcasts_S1x1_S512x1 : S1x1.Broadcasts S512x1
  h_S512x512 : 0 < S512x512.numel
  h_S64x512 : 0 < S64x512.numel
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  reduces_S512x64_S512 : S512x64.Reduces [1] S512
  reduces_S512x1_S1 : S512x1.Reduces [0] S1
  shapeCasts_S1x1_S1 : S1x1.ShapeCasts S1
  scatter_S4096x128_S1_S4096x64_01_n_1_0_wf : ScatterDims.WF S4096x128 S1 S4096x64 [0, 1] [] [1] 0
  scatter_S4096x128_S1_S4096_0_1_1_0_wf : ScatterDims.WF S4096x128 S1 S4096 [0] [1] [1] 0
  scatter_S1x128_S2_S64_0_0_01_0_wf : ScatterDims.WF S1x128 S2 S64 [0] [0] [0, 1] 0
  scatter_S1x128_S2_S__n_01_01_0_wf : ScatterDims.WF S1x128 S2 S_ [] [0, 1] [0, 1] 0
  dot_S512x4096_S4096x128_S512x128_1_0_0_1_n_n_wf : DotDims.WF S512x4096 S4096x128 S512x128 [1] [0] [0] [1] [] []
  dot_S512x64_S64x1_S512x1_1_0_0_1_n_n_wf : DotDims.WF S512x64 S64x1 S512x1 [1] [0] [0] [1] [] []
  dot_S512x64_S64x512_S512x512_1_0_0_1_n_n_wf : DotDims.WF S512x64 S64x512 S512x512 [1] [0] [0] [1] [] []
  hrank0 : 0 < grid0.rank
  k0_mult1_dvd : 512 ∣ k0_mult1.toNat
  k0_off1_inb : ∀ (r : Fin 8), ∀ a, (k0_off1 (BitVec.ofNat 32 r.val)) a + S512x512.size a ≤ S512x4096.size a
  k0_off2_inb : ∀ (r : Fin 8), ∀ a, (k0_off2 (BitVec.ofNat 32 r.val)) a + S64x512.size a ≤ S64x4096.size a
  k0_off3_inb : ∀ (r : Fin 8), ∀ a, (k0_off3 (BitVec.ofNat 32 r.val)) a + S1x512.size a ≤ S1x4096.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S16384x64.size a
  hwx0_1 : ∀ i : grid0.Coords, EltTy.bits .f32 = 32 ∨ (Rect.block (s := S16384x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x4096.size a
  hwx0_4 : ∀ i : grid0.Coords, EltTy.bits .f32 = 32 ∨ (Rect.block (s := S64x4096) S64x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)

variable [Facts₀]

def scatter_S4096x128_S1_S4096x64_01_n_1_0 : ScatterDims S4096x128 S1 S4096x64 where
  updateWindowDims := [0, 1]
  insertedWindowDims := []
  scatterDimsToOperandDims := [1]
  indexVectorDim := 0
  wf := scatter_S4096x128_S1_S4096x64_01_n_1_0_wf
def scatter_S4096x128_S1_S4096_0_1_1_0 : ScatterDims S4096x128 S1 S4096 where
  updateWindowDims := [0]
  insertedWindowDims := [1]
  scatterDimsToOperandDims := [1]
  indexVectorDim := 0
  wf := scatter_S4096x128_S1_S4096_0_1_1_0_wf
def scatter_S1x128_S2_S64_0_0_01_0 : ScatterDims S1x128 S2 S64 where
  updateWindowDims := [0]
  insertedWindowDims := [0]
  scatterDimsToOperandDims := [0, 1]
  indexVectorDim := 0
  wf := scatter_S1x128_S2_S64_0_0_01_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S16384x4096 : Shape := ⟨2, ![16384, 4096]⟩
abbrev S16384x64 : Shape := ⟨2, ![16384, 64]⟩
abbrev S4096x64 : Shape := ⟨2, ![4096, 64]⟩
abbrev S64 : Shape := ⟨1, ![64]⟩
abbrev S4096x1 : Shape := ⟨2, ![4096, 1]⟩
abbrev S1 : Shape := ⟨1, ![1]⟩
abbrev S64x4096 : Shape := ⟨2, ![64, 4096]⟩
abbrev S4096 : Shape := ⟨1, ![4096]⟩
abbrev S64x1 : Shape := ⟨2, ![64, 1]⟩
abbrev S1x64 : Shape := ⟨2, ![1, 64]⟩
abbrev S16384x1 : Shape := ⟨2, ![16384, 1]⟩
abbrev S1x1 : Shape := ⟨2, ![1, 1]⟩
abbrev S1x4096 : Shape := ⟨2, ![1, 4096]⟩
abbrev S16384 : Shape := ⟨1, ![16384]⟩
abbrev S_ : Shape := ⟨0, ![]⟩

abbrev nBuf : Space → Nat
  | .hbm => 82
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x64, .f32⟩
  | .hbm, ⟨2, _⟩ => ⟨S4096x64, .f32⟩
  | .hbm, ⟨3, _⟩ => ⟨S64, .f32⟩
  | .hbm, ⟨4, _⟩ => ⟨S4096x1, .f32⟩
  | .hbm, ⟨5, _⟩ => ⟨S1, .f32⟩
  | .hbm, ⟨6, _⟩ => ⟨S64x4096, .f32⟩
  | .hbm, ⟨7, _⟩ => ⟨S4096, .f32⟩
  | .hbm, ⟨8, _⟩ => ⟨S64x1, .f32⟩
  | .hbm, ⟨9, _⟩ => ⟨S1, .f32⟩
  | .hbm, ⟨10, _⟩ => ⟨S16384x64, .f32⟩
  | .hbm, ⟨11, _⟩ => ⟨S1x64, .f32⟩
  | .hbm, ⟨12, _⟩ => ⟨S16384x64, .f32⟩
  | .hbm, ⟨13, _⟩ => ⟨S16384x64, .f32⟩
  | .hbm, ⟨14, _⟩ => ⟨S16384x1, .f32⟩
  | .hbm, ⟨15, _⟩ => ⟨S1x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x4096, .f32⟩
  | .hbm, ⟨23, _⟩ => ⟨S1x4096, .f32⟩
  | .hbm, ⟨24, _⟩ => ⟨S16384x4096, .f32⟩
  | .hbm, ⟨25, _⟩ => ⟨S16384x4096, .f32⟩
  | .hbm, ⟨26, _⟩ => ⟨S16384x1, .f32⟩
  | .hbm, ⟨27, _⟩ => ⟨S1x1, .f32⟩
  | .hbm, ⟨28, _⟩ => ⟨S16384x1, .f32⟩
  | .hbm, ⟨29, _⟩ => ⟨S16384x1, .f32⟩
  | .hbm, ⟨30, _⟩ => ⟨S16384, .f32⟩
  | .hbm, ⟨31, _⟩ => ⟨S16384, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384x64, .f32⟩
  | .hbm, ⟨37, _⟩ => ⟨S16384x64, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S16384, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384x4096, .f32⟩
  | .hbm, ⟨53, _⟩ => ⟨S16384x4096, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S_, .f32⟩
  | .hbm, ⟨58, _⟩ => ⟨S16384, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S16384, .f32⟩
  | .hbm, ⟨64, _⟩ => ⟨S16384, .f32⟩
  | .hbm, ⟨65, _⟩ => ⟨S_, .f32⟩
  | .hbm, ⟨66, _⟩ => ⟨S16384, .f32⟩
  | .hbm, ⟨67, _⟩ => ⟨S16384, .f32⟩
  | .hbm, ⟨68, _⟩ => ⟨S16384x64, .f32⟩
  | .hbm, ⟨69, _⟩ => ⟨S_, .f32⟩
  | .hbm, ⟨70, _⟩ => ⟨S16384, .f32⟩
  | .hbm, ⟨71, _⟩ => ⟨S_, .f32⟩
  | .hbm, ⟨72, _⟩ => ⟨S16384, .f32⟩
  | .hbm, ⟨73, _⟩ => ⟨S16384, .f32⟩
  | .hbm, ⟨74, _⟩ => ⟨S_, .f32⟩
  | .hbm, ⟨75, _⟩ => ⟨S16384, .f32⟩
  | .hbm, ⟨76, _⟩ => ⟨S16384, .f32⟩
  | .hbm, ⟨77, _⟩ => ⟨S16384, .f32⟩
  | .hbm, ⟨78, _⟩ => ⟨S16384, .f32⟩
  | .hbm, ⟨79, _⟩ => ⟨S_, .f32⟩
  | .hbm, ⟨80, _⟩ => ⟨S_, .f32⟩
  | .hbm, ⟨81, _⟩ => ⟨S1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S16384x1_S16384x64_0_1 : S16384x1.BroadcastsInDim S16384x64 (![0, 1] : Fin 2 → Fin S16384x64.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  shapeCasts_S16384x1_S16384 : S16384x1.ShapeCasts S16384
  reducesTo_S16384x64_S16384_d1 : S16384x64.ReducesTo [1] S16384
  h_S_ : 0 < S_.numel
  bcast_S_S16384 : S_.BroadcastsInDim S16384 (![] : Fin 0 → Fin S16384.rank)
  reducesTo_S16384x4096_S16384_d1 : S16384x4096.ReducesTo [1] S16384
  reducesTo_S16384_S_d0 : S16384.ReducesTo [0] S_
  shapeCasts_S_S1 : S_.ShapeCasts S1
  dot_S16384x4096_S4096x64_S16384x64_1_0_0_1_n_n_wf : DotDims.WF S16384x4096 S4096x64 S16384x64 [1] [0] [0] [1] [] []
  dot_S16384x4096_S4096x1_S16384x1_1_0_0_1_n_n_wf : DotDims.WF S16384x4096 S4096x1 S16384x1 [1] [0] [0] [1] [] []
  dot_S16384x64_S64x4096_S16384x4096_1_0_0_1_n_n_wf : DotDims.WF S16384x64 S64x4096 S16384x4096 [1] [0] [0] [1] [] []
  dot_S16384x64_S64x1_S16384x1_1_0_0_1_n_n_wf : DotDims.WF S16384x64 S64x1 S16384x1 [1] [0] [0] [1] [] []

variable [Facts₀]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf
def dot_S16384x4096_S4096x1_S16384x1_1_0_0_1_n_n : DotDims S16384x4096 S4096x1 S16384x1 where
  lhsContracting := [1]
  rhsContracting := [0]
  lhsNonContracting := [0]
  rhsNonContracting := [1]
  lhsBatch := []
  rhsBatch := []
  wf := dot_S16384x4096_S4096x1_S16384x1_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.Spec.lean ====
/-
  The function both programs compute, written once over the extended reals.

  For one data row `x` (4096 entries) with its noise row `ε` (64 entries):
    μ_j   = Σ_k x_k · Wμ_{k,j} + bμ_j                 (encoder mean, 64 entries)
    s     = Σ_k x_k · Wσ_k + bσ                        (encoder scale, one number)
    z_j   = μ_j + (s·s) · ε_j                           (the reparametrised sample)
    x̂_l   = Σ_j z_j · Wd_{j,l} + bd_l                  (decoder mean, 4096 entries)
    t     = Σ_j z_j · Wτ_j + bτ                        (decoder scale, one number)
    v_z   = (s·s)·(s·s),   v_x = (t·t)·(t·t)            (the two variances)
  and the row's contribution to the bound is
    log q(z|x) − log p(x|z) − log p(z)
  with the three isotropic Gaussian log-densities
    log q = −½·((64·log 2π + 64·log v_z) + Σ_j (z_j − μ_j)² / v_z)
    log p(x|z) = −½·((4096·log 2π + 4096·log v_x) + Σ_l (x_l − x̂_l)² / v_x)
    log p(z)   = −½·(64·log 2π + Σ_j z_j²).
  The result is the sum of the contributions of the 16384 rows. The five float constants are kept as their
  binary words: both programs carry the same words, so they are never evaluated.
-/
import Idealize.ShloMosaic.PureOps.Ideal
import Idealize.ShloMosaic.Lib.ValueIdx

noncomputable section

open scoped BigOperators

namespace Cert.Spec

open Idealize.ShloMosaic Idealize.ShloMosaic.ValueIdx

/-- The latent dimension as a float, 64. -/
def cK : EReal := Ideal.ofBits .f32 0x42800000#32
/-- 64 · log 2π, rounded to a float. -/
def cKL : EReal := Ideal.ofBits .f32 0x42EB3F8E#32
/-- The data dimension as a float, 4096. -/
def cM : EReal := Ideal.ofBits .f32 0x45800000#32
/-- 4096 · log 2π, rounded to a float. -/
def cML : EReal := Ideal.ofBits .f32 0x45EB3F8E#32
/-- −½. -/
def cH : EReal := Ideal.ofBits .f32 0xBF000000#32

/-- The encoder mean of a row. -/
def encMean (x : Fin 4096 → EReal) (Wμ : Fin 4096 → Fin 64 → EReal) (bμ : Fin 64 → EReal) (j : Fin 64) : EReal :=
  (∑ k : Fin 4096, x k * Wμ k j) + bμ j

/-- The encoder scale of a row. -/
def encScale (x : Fin 4096 → EReal) (Wσ : Fin 4096 → EReal) (bσ : EReal) : EReal :=
  (∑ k : Fin 4096, x k * Wσ k) + bσ

/-- The reparametrised latent sample of a row: mean plus squared scale times noise. -/
def latent (x : Fin 4096 → EReal) (ε : Fin 64 → EReal) (Wμ : Fin 4096 → Fin 64 → EReal) (bμ : Fin 64 → EReal)
    (Wσ : Fin 4096 → EReal) (bσ : EReal) (j : Fin 64) : EReal :=
  encMean x Wμ bμ j + (encScale x Wσ bσ * encScale x Wσ bσ) * ε j

/-- The decoder mean of a latent vector. -/
def decMean (z : Fin 64 → EReal) (Wd : Fin 64 → Fin 4096 → EReal) (bd : Fin 4096 → EReal) (l : Fin 4096) : EReal :=
  (∑ j : Fin 64, z j * Wd j l) + bd l

/-- The decoder scale of a latent vector. -/
def decScale (z : Fin 64 → EReal) (Wτ : Fin 64 → EReal) (bτ : EReal) : EReal :=
  (∑ j : Fin 64, z j * Wτ j) + bτ

/-- A scale's fourth power, grouped as the square of its square. -/
def fourth (s : EReal) : EReal := (s * s) * (s * s)

/-- One row's contribution, from the row's latent sample `z`, encoder mean `μ`, the two variances and the row itself
    with its decoder mean: `log q(z|x) − log p(x|z) − log p(z)`. -/
def contrib (x : Fin 4096 → EReal) (xhat : Fin 4096 → EReal) (z μ : Fin 64 → EReal) (vz vx : EReal) : EReal :=
  (cH * ((cKL + cK * Ideal.log vz) + Ideal.div (∑ j : Fin 64, (z j - μ j) * (z j - μ j)) vz)
    - cH * ((cML + cM * Ideal.log vx) + Ideal.div (∑ l : Fin 4096, (x l - xhat l) * (x l - xhat l)) vx))
    - cH * (cKL + ∑ j : Fin 64, z j * z j)

/-- One row's contribution as a function of the row, its noise and the ten parameters. -/
def rowTerm (x : Fin 4096 → EReal) (ε : Fin 64 → EReal) (Wμ : Fin 4096 → Fin 64 → EReal) (bμ : Fin 64 → EReal)
    (Wσ : Fin 4096 → EReal) (bσ : EReal) (Wd : Fin 64 → Fin 4096 → EReal) (bd : Fin 4096 → EReal)
    (Wτ : Fin 64 → EReal) (bτ : EReal) : EReal :=
  contrib x (decMean (latent x ε Wμ bμ Wσ bσ) Wd bd) (latent x ε Wμ bμ Wσ bσ) (encMean x Wμ bμ)
    (fourth (encScale x Wσ bσ)) (fourth (decScale (latent x ε Wμ bμ Wσ bσ) Wτ bτ))

/-- The whole result: the sum over the 16384 rows, from the ten argument arrays indexed by coordinates. -/
def total (X : (⟨2, ![16384, 4096]⟩ : Shape).Idx → EReal) (N : (⟨2, ![16384, 64]⟩ : Shape).Idx → EReal)
    (Wμ : (⟨2, ![4096, 64]⟩ : Shape).Idx → EReal) (bμ : (⟨1, ![64]⟩ : Shape).Idx → EReal)
    (Wσ : (⟨2, ![4096, 1]⟩ : Shape).Idx → EReal) (bσ : (⟨1, ![1]⟩ : Shape).Idx → EReal)
    (Wd : (⟨2, ![64, 4096]⟩ : Shape).Idx → EReal) (bd : (⟨1, ![4096]⟩ : Shape).Idx → EReal)
    (Wτ : (⟨2, ![64, 1]⟩ : Shape).Idx → EReal) (bτ : (⟨1, ![1]⟩ : Shape).Idx → EReal) : EReal :=
  ∑ r : Fin 16384, rowTerm (fun k => X (ix2 r k)) (fun j => N (ix2 r j)) (fun k j => Wμ (ix2 k j)) (fun j => bμ (ix1 j))
    (fun k => Wσ (ix2 k (0 : Fin 1))) (bσ (ix1 (0 : Fin 1))) (fun j l => Wd (ix2 j l)) (fun l => bd (ix1 l))
    (fun j => Wτ (ix2 j (0 : Fin 1))) (bτ (ix1 (0 : Fin 1)))

/-- The sum over the rows of one tile of 512 rows, from the tile's blocks as the kernel sees them: the data and noise
    blocks, the packed encoder weight (columns 0–63 the mean's, column 64 the scale's) and packed bias (one row,
    same columns), the decoder weight, the decoder bias as one row, the decoder-scale weight and its bias. -/
def tileSum (x : (⟨2, ![512, 4096]⟩ : Shape).Idx → EReal) (n : (⟨2, ![512, 64]⟩ : Shape).Idx → EReal)
    (W : (⟨2, ![4096, 128]⟩ : Shape).Idx → EReal) (b : (⟨2, ![1, 128]⟩ : Shape).Idx → EReal)
    (Wd : (⟨2, ![64, 4096]⟩ : Shape).Idx → EReal) (bd : (⟨2, ![1, 4096]⟩ : Shape).Idx → EReal)
    (Wτ : (⟨2, ![64, 1]⟩ : Shape).Idx → EReal) (bτ : (⟨2, ![1, 1]⟩ : Shape).Idx → EReal) : EReal :=
  ∑ p : Fin 512, rowTerm (fun k => x (ix2 p k)) (fun j => n (ix2 p j))
    (fun k j => W (ix2 k (Fin.castLE (by decide : 64 ≤ 128) j))) (fun j => b (ix2 (0 : Fin 1) (Fin.castLE (by decide : 64 ≤ 128) j)))
    (fun k => W (ix2 k (64 : Fin 128))) (b (ix2 (0 : Fin 1) (64 : Fin 128))) (fun j l => Wd (ix2 j l))
    (fun l => bd (ix2 (0 : Fin 1) l)) (fun j => Wτ (ix2 j (0 : Fin 1))) (bτ (ix2 (0 : Fin 1) (0 : Fin 1)))

end Cert.Spec

end
-- ==== Proof.RefRead.lean ====
/-
  The reference's result read one operation at a time.

  Row `r` of the data, with its noise row, goes through the encoder (a mean vector and one scale), the
  reparametrisation, the decoder (a mean vector and one scale), three sums of squares along the row, and the three
  Gaussian log-densities; the result's one entry is the sum over the 16384 rows of
  `log q(z|x) − log p(x|z) − log p(z)`. Each lemma below identifies one intermediate array of the reference, at
  row `r`, with the corresponding function of the specification; the float constants stay as their binary words,
  and only the zero word (the initial value of every sum) is evaluated.
-/
import proofs.«103976_j42202348650518_2_alg».proof.Proof.Gen.ReferenceIdeal.Read
import proofs.«103976_j42202348650518_2_alg».proof.Proof.Spec
import Idealize.ShloMosaic.Lib.ValueIdx
import Idealize.ShloMosaic.Lib.Pipeline.Value
import Idealize.ShloMosaic.PureOps.Ideal.Laws

noncomputable section

open scoped BigOperators

namespace Cert.RefRead

open Cert.ReferenceIdeal Cert.ReferenceIdeal.Gen Cert.ReferenceIdeal.Read Idealize.ShloMosaic Idealize.ShloMosaic.ValueIdx

/-- A sum over the indices of a one-axis shape is the sum over the axis. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  exact (Equiv.sum_comp e.symm f).symm

variable (X0 : (⟨S16384x4096, .f32⟩ : BufTy).Contents (Elt Ideal)) (X1 : (⟨S16384x64, .f32⟩ : BufTy).Contents (Elt Ideal))
  (X2 : (⟨S4096x64, .f32⟩ : BufTy).Contents (Elt Ideal)) (X3 : (⟨S64, .f32⟩ : BufTy).Contents (Elt Ideal))
  (X4 : (⟨S4096x1, .f32⟩ : BufTy).Contents (Elt Ideal)) (X5 : (⟨S1, .f32⟩ : BufTy).Contents (Elt Ideal))
  (X6 : (⟨S64x4096, .f32⟩ : BufTy).Contents (Elt Ideal)) (X7 : (⟨S4096, .f32⟩ : BufTy).Contents (Elt Ideal))
  (X8 : (⟨S64x1, .f32⟩ : BufTy).Contents (Elt Ideal)) (X9 : (⟨S1, .f32⟩ : BufTy).Contents (Elt Ideal))

/-- %3 at row `r`, column `j`: the encoder mean of the row. -/
theorem encMean_read (r : Fin 16384) (j : Fin 64) :
    val_main_v3 (F := Ideal) X0 X2 X3 (ix2 r j) = (Cert.Spec.encMean (fun k => X0 (ix2 r k)) (fun k j => X2 (ix2 k j)) (fun j => X3 (ix1 j))) j := by
  rw [val_main_v3_apply, val_main_v0_apply, val_main_v2_apply, val_main_v1_apply]
  have e1 : ∀ k : Fin 4096, lidx_main_v0 (ix2 r j) k = ix2 r k := fun k => funext fun a => by match a with | ⟨0, _⟩ => rfl | ⟨1, _⟩ => rfl
  have e2 : ∀ k : Fin 4096, ridx_main_v0 (ix2 r j) k = ix2 k j := fun k => funext fun a => by match a with | ⟨0, _⟩ => rfl | ⟨1, _⟩ => rfl
  have e3 : idx_main_v1 (idx_main_v2 (ix2 r j)) = ix1 j := funext fun a => by match a with | ⟨0, _⟩ => rfl
  simp only [e1, e2, e3, Ideal.addf_def]
  rfl

/-- %7 at row `r`: the encoder scale of the row. -/
theorem encScale_read (r : Fin 16384) :
    val_main_v7 (F := Ideal) X0 X4 X5 (ix2 r (0 : Fin 1)) = (Cert.Spec.encScale (fun k => X0 (ix2 r k)) (fun k => X4 (ix2 k (0 : Fin 1))) (X5 (ix1 (0 : Fin 1)))) := by
  rw [val_main_v7_apply, val_main_v4_apply, val_main_v6_apply, val_main_v5_apply]
  have e1 : ∀ k : Fin 4096, lidx_main_v4 (ix2 r (0 : Fin 1)) k = ix2 r k := fun k => funext fun a => by match a with | ⟨0, _⟩ => rfl | ⟨1, _⟩ => rfl
  have e2 : ∀ k : Fin 4096, ridx_main_v4 (ix2 r (0 : Fin 1)) k = ix2 k (0 : Fin 1) := fun k => funext fun a => by match a with | ⟨0, _⟩ => rfl | ⟨1, _⟩ => rfl
  have e3 : idx_main_v5 (idx_main_v6 (ix2 r (0 : Fin 1))) = ix1 (0 : Fin 1) := funext fun a => by match a with | ⟨0, _⟩ => rfl
  simp only [e1, e2, e3, Ideal.addf_def]
  rfl

/-- %11 at row `r`, column `j`: the reparametrised sample. -/
theorem latent_read (r : Fin 16384) (j : Fin 64) :
    val_main_v11 (F := Ideal) X0 X1 X2 X3 X4 X5 (ix2 r j) = (Cert.Spec.latent (fun k => X0 (ix2 r k)) (fun j => X1 (ix2 r j)) (fun k j => X2 (ix2 k j)) (fun j => X3 (ix1 j)) (fun k => X4 (ix2 k (0 : Fin 1))) (X5 (ix1 (0 : Fin 1)))) j := by
  rw [val_main_v11_apply, val_main_v10_apply, val_main_v9_apply, val_main_v8_apply]
  have e : idx_main_v9 (ix2 r j) = ix2 r (0 : Fin 1) := funext fun a => by match a with | ⟨0, _⟩ => rfl | ⟨1, _⟩ => rfl
  rw [e, encMean_read, encScale_read]
  rfl

/-- %15 at row `r`, column `l`: the decoder mean of the row's sample. -/
theorem decMean_read (r : Fin 16384) (l : Fin 4096) :
    val_main_v15 (F := Ideal) X0 X1 X2 X3 X4 X5 X6 X7 (ix2 r l) = (Cert.Spec.decMean (Cert.Spec.latent (fun k => X0 (ix2 r k)) (fun j => X1 (ix2 r j)) (fun k j => X2 (ix2 k j)) (fun j => X3 (ix1 j)) (fun k => X4 (ix2 k (0 : Fin 1))) (X5 (ix1 (0 : Fin 1)))) (fun j l => X6 (ix2 j l)) (fun l => X7 (ix1 l))) l := by
  rw [val_main_v15_apply, val_main_v12_apply, val_main_v14_apply, val_main_v13_apply]
  have e1 : ∀ k : Fin 64, lidx_main_v12 (ix2 r l) k = ix2 r k := fun k => funext fun a => by match a with | ⟨0, _⟩ => rfl | ⟨1, _⟩ => rfl
  have e2 : ∀ k : Fin 64, ridx_main_v12 (ix2 r l) k = ix2 k l := fun k => funext fun a => by match a with | ⟨0, _⟩ => rfl | ⟨1, _⟩ => rfl
  have e3 : idx_main_v13 (idx_main_v14 (ix2 r l)) = ix1 l := funext fun a => by match a with | ⟨0, _⟩ => rfl
  simp only [e1, e2, e3, latent_read, Ideal.addf_def]
  rfl

/-- %19 at row `r`: the decoder scale of the row's sample. -/
theorem decScale_read (r : Fin 16384) :
    val_main_v19 (F := Ideal) X0 X1 X2 X3 X4 X5 X8 X9 (ix2 r (0 : Fin 1)) = (Cert.Spec.decScale (Cert.Spec.latent (fun k => X0 (ix2 r k)) (fun j => X1 (ix2 r j)) (fun k j => X2 (ix2 k j)) (fun j => X3 (ix1 j)) (fun k => X4 (ix2 k (0 : Fin 1))) (X5 (ix1 (0 : Fin 1)))) (fun j => X8 (ix2 j (0 : Fin 1))) (X9 (ix1 (0 : Fin 1)))) := by
  rw [val_main_v19_apply, val_main_v16_apply, val_main_v18_apply, val_main_v17_apply]
  have e1 : ∀ k : Fin 64, lidx_main_v16 (ix2 r (0 : Fin 1)) k = ix2 r k := fun k => funext fun a => by match a with | ⟨0, _⟩ => rfl | ⟨1, _⟩ => rfl
  have e2 : ∀ k : Fin 64, ridx_main_v16 (ix2 r (0 : Fin 1)) k = ix2 k (0 : Fin 1) := fun k => funext fun a => by match a with | ⟨0, _⟩ => rfl | ⟨1, _⟩ => rfl
  have e3 : idx_main_v17 (idx_main_v18 (ix2 r (0 : Fin 1))) = ix1 (0 : Fin 1) := funext fun a => by match a with | ⟨0, _⟩ => rfl
  simp only [e1, e2, e3, latent_read, Ideal.addf_def]
  rfl

/-- %22 at row `r`: the encoder variance, the fourth power of the encoder scale. -/
theorem encVar_read (r : Fin 16384) :
    val_main_v22 (F := Ideal) X0 X4 X5 (ix1 r) = Cert.Spec.fourth (Cert.Spec.encScale (fun k => X0 (ix2 r k)) (fun k => X4 (ix2 k (0 : Fin 1))) (X5 (ix1 (0 : Fin 1)))) := by
  rw [val_main_v22_apply, val_main_v21_apply, val_main_v20_apply]
  have e : idx_main_v20 (ix1 r) = ix2 r (0 : Fin 1) :=
    funext fun a => by match a with | ⟨0, _⟩ => exact Fin.ext (Nat.div_one _) | ⟨1, _⟩ => rfl
  rw [e, encScale_read]
  rfl

/-- %25 at row `r`: the decoder variance, the fourth power of the decoder scale. -/
theorem decVar_read (r : Fin 16384) :
    val_main_v25 (F := Ideal) X0 X1 X2 X3 X4 X5 X8 X9 (ix1 r) = Cert.Spec.fourth (Cert.Spec.decScale (Cert.Spec.latent (fun k => X0 (ix2 r k)) (fun j => X1 (ix2 r j)) (fun k j => X2 (ix2 k j)) (fun j => X3 (ix1 j)) (fun k => X4 (ix2 k (0 : Fin 1))) (X5 (ix1 (0 : Fin 1)))) (fun j => X8 (ix2 j (0 : Fin 1))) (X9 (ix1 (0 : Fin 1)))) := by
  rw [val_main_v25_apply, val_main_v24_apply, val_main_v23_apply]
  have e : idx_main_v23 (ix1 r) = ix2 r (0 : Fin 1) :=
    funext fun a => by match a with | ⟨0, _⟩ => exact Fin.ext (Nat.div_one _) | ⟨1, _⟩ => rfl
  rw [e, decScale_read]
  rfl

/-- %28 at row `r`: the squared distance of the sample from the encoder mean. -/
theorem sqDev_read (r : Fin 16384) :
    val_main_v28 (F := Ideal) X0 X1 X2 X3 X4 X5 (ix1 r)
      = ∑ j : Fin 64, ((Cert.Spec.latent (fun k => X0 (ix2 r k)) (fun j => X1 (ix2 r j)) (fun k j => X2 (ix2 k j)) (fun j => X3 (ix1 j)) (fun k => X4 (ix2 k (0 : Fin 1))) (X5 (ix1 (0 : Fin 1)))) j - (Cert.Spec.encMean (fun k => X0 (ix2 r k)) (fun k j => X2 (ix2 k j)) (fun j => X3 (ix1 j))) j) * ((Cert.Spec.latent (fun k => X0 (ix2 r k)) (fun j => X1 (ix2 r j)) (fun k j => X2 (ix2 k j)) (fun j => X3 (ix1 j)) (fun k => X4 (ix2 k (0 : Fin 1))) (X5 (ix1 (0 : Fin 1)))) j - (Cert.Spec.encMean (fun k => X0 (ix2 r k)) (fun k j => X2 (ix2 k j)) (fun j => X3 (ix1 j))) j) := by
  rw [val_main_v28_apply, val_main_cst_apply, Ideal.ofBits_def, Ideal.ofBits_zero_f32, zero_add]
  refine Finset.sum_congr rfl fun k _ => ?_
  have e : idx_main_v28 (ix1 r) k = ix2 r k := funext fun a => by match a with | ⟨0, _⟩ => rfl | ⟨1, _⟩ => rfl
  rw [e, val_main_v27_apply, val_main_v26_apply, latent_read, encMean_read]
  rfl

/-- %40 at row `r`: the squared distance of the row from its decoder mean. -/
theorem sqErr_read (r : Fin 16384) :
    val_main_v40 (F := Ideal) X0 X1 X2 X3 X4 X5 X6 X7 (ix1 r)
      = ∑ l : Fin 4096, (X0 (ix2 r l) - (Cert.Spec.decMean (Cert.Spec.latent (fun k => X0 (ix2 r k)) (fun j => X1 (ix2 r j)) (fun k j => X2 (ix2 k j)) (fun j => X3 (ix1 j)) (fun k => X4 (ix2 k (0 : Fin 1))) (X5 (ix1 (0 : Fin 1)))) (fun j l => X6 (ix2 j l)) (fun l => X7 (ix1 l))) l) * (X0 (ix2 r l) - (Cert.Spec.decMean (Cert.Spec.latent (fun k => X0 (ix2 r k)) (fun j => X1 (ix2 r j)) (fun k j => X2 (ix2 k j)) (fun j => X3 (ix1 j)) (fun k => X4 (ix2 k (0 : Fin 1))) (X5 (ix1 (0 : Fin 1)))) (fun j l => X6 (ix2 j l)) (fun l => X7 (ix1 l))) l) := by
  rw [val_main_v40_apply, val_main_cst_3_apply, Ideal.ofBits_def, Ideal.ofBits_zero_f32, zero_add]
  refine Finset.sum_congr rfl fun k _ => ?_
  have e : idx_main_v40 (ix1 r) k = ix2 r k := funext fun a => by match a with | ⟨0, _⟩ => rfl | ⟨1, _⟩ => rfl
  rw [e, val_main_v39_apply, val_main_v38_apply, decMean_read]
  rfl

/-- %51 at row `r`: the squared length of the sample. -/
theorem sqLat_read (r : Fin 16384) :
    val_main_v51 (F := Ideal) X0 X1 X2 X3 X4 X5 (ix1 r) = ∑ j : Fin 64, (Cert.Spec.latent (fun k => X0 (ix2 r k)) (fun j => X1 (ix2 r j)) (fun k j => X2 (ix2 k j)) (fun j => X3 (ix1 j)) (fun k => X4 (ix2 k (0 : Fin 1))) (X5 (ix1 (0 : Fin 1)))) j * (Cert.Spec.latent (fun k => X0 (ix2 r k)) (fun j => X1 (ix2 r j)) (fun k j => X2 (ix2 k j)) (fun j => X3 (ix1 j)) (fun k => X4 (ix2 k (0 : Fin 1))) (X5 (ix1 (0 : Fin 1)))) j := by
  rw [val_main_v51_apply, val_main_cst_7_apply, Ideal.ofBits_def, Ideal.ofBits_zero_f32, zero_add]
  refine Finset.sum_congr rfl fun k _ => ?_
  have e : idx_main_v51 (ix1 r) k = ix2 r k := funext fun a => by match a with | ⟨0, _⟩ => rfl | ⟨1, _⟩ => rfl
  rw [e, val_main_v50_apply, latent_read]
  rfl

/-- %57 at row `r`: the row's contribution to the bound. -/
theorem row_read (r : Fin 16384) :
    val_main_v57 (F := Ideal) X0 X1 X2 X3 X4 X5 X6 X7 X8 X9 (ix1 r)
      = Cert.Spec.rowTerm (fun k => X0 (ix2 r k)) (fun j => X1 (ix2 r j)) (fun k j => X2 (ix2 k j)) (fun j => X3 (ix1 j)) (fun k => X4 (ix2 k (0 : Fin 1))) (X5 (ix1 (0 : Fin 1))) (fun j l => X6 (ix2 j l)) (fun l => X7 (ix1 l)) (fun j => X8 (ix2 j (0 : Fin 1))) (X9 (ix1 (0 : Fin 1))) := by
  unfold Cert.Spec.rowTerm Cert.Spec.contrib Cert.Spec.cH Cert.Spec.cK Cert.Spec.cKL Cert.Spec.cM Cert.Spec.cML
  simp only [val_main_v57_apply, val_main_v56_apply, val_main_v37_apply, val_main_v49_apply, val_main_v55_apply,
    val_main_v36_apply, val_main_v48_apply, val_main_v54_apply, val_main_cst_2_apply, val_main_cst_6_apply,
    val_main_cst_9_apply, val_main_v35_apply, val_main_v47_apply, val_main_v53_apply, val_main_v33_apply,
    val_main_v34_apply, val_main_v45_apply, val_main_v46_apply, val_main_v32_apply, val_main_v44_apply,
    val_main_v52_apply, val_main_cst_1_apply, val_main_cst_5_apply, val_main_cst_8_apply, val_main_v31_apply,
    val_main_v43_apply, val_main_v30_apply, val_main_v42_apply, val_main_cst_0_apply, val_main_cst_4_apply,
    val_main_v29_apply, val_main_v41_apply, sqDev_read, sqErr_read, sqLat_read, encVar_read, decVar_read,
    Ideal.ofBits_def, Ideal.addf_def, Ideal.subf_def, Ideal.mulf_def, Ideal.hostDivf_def, Ideal.hostUnary_log_def]

/-- The reference's result: its one entry is the sum of the rows' contributions. -/
theorem ref_total :
    val_main_v59 (F := Ideal) X0 X1 X2 X3 X4 X5 X6 X7 X8 X9 = fun _ => Cert.Spec.total X0 X1 X2 X3 X4 X5 X6 X7 X8 X9 := by
  funext i
  have h : val_main_v59 (F := Ideal) X0 X1 X2 X3 X4 X5 X6 X7 X8 X9 i = val_main_v58 (F := Ideal) X0 X1 X2 X3 X4 X5 X6 X7 X8 X9 ix0 := by
    unfold val_main_v59
    refine shapeCast_apply _ shapeCasts_S_S1 i ix0 ?_
    have h1 : (S_.rowMajor ix0).val = 0 := Shape.rowMajorPi_zero _ _
    have h2 : (S1.rowMajor i).val = (i 0).val := Shape.rowMajor_val_one i
    have h3 : (i 0).val < 1 := (i 0).isLt
    omega
  rw [h, val_main_v58_apply, val_main_cst_10_apply, Ideal.ofBits_def, Ideal.ofBits_zero_f32, zero_add, sum_idx1]
  unfold Cert.Spec.total
  exact Finset.sum_congr rfl fun r _ => row_read X0 X1 X2 X3 X4 X5 X6 X7 X8 X9 r

end Cert.RefRead

end
-- ==== Proof.KOps.lean ====
/-
  The kernel body's non-pointwise operations read at one index, at the exact values (a float is an extended real).

  A matrix product into a zero accumulator is, at (p, q), the sum over the contracted axis of the operands'
  products; a sum along the columns is, at row p, the sum of that row; a sum along the rows of a one-column
  array is the sum of its entries; a column [a] viewed as [a, 1], and a column [a, 1] repeated along b columns,
  read the column at its row; and a load of a window of 512 columns starting at column o reads the block at
  the same row and the column moved by o.
-/
import proofs.«103976_j42202348650518_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KOps

open Cert.KernelIdeal Idealize.ShloMosaic Idealize.ShloMosaic.ValueIdx

variable {α : Type}

/-! ## Layout forms of a column -/

/-- A column `[a]` viewed as `[a, 1]` reads, at `(p, 0)`, the column at `p`. -/
theorem cast_col {a : ℕ} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-- A column `[a, 1]` repeated along `b` columns reads, at `(p, c)`, the column at `p`. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rfl

/-! ## A window of columns of a loaded block -/

/-- The unit-stride rectangle of all `a` rows and `w` columns from column `o` places `(p, l)` at `(p, o + l)`. -/
theorem emb_cols {a n w : ℕ} (o : ℕ) (inb : ∀ ax, (![0, o] : Fin 2 → ℕ) ax + (![a, w] : Fin 2 → ℕ) ax ≤ (⟨2, ![a, n]⟩ : Shape).size ax)
    (p : Fin a) (l : Fin w) (k : Fin n) (hk : k.val = o + l.val) :
    (Rect.unit (s := ⟨2, ![a, n]⟩) ![0, o] ![a, w] inb).emb (ix2 p l) = ix2 p k := by
  funext ax
  refine Fin.ext ?_
  rw [Rect.emb_apply]
  match ax with
  | ⟨0, _⟩ => show 0 + 1 * p.val = p.val; omega
  | ⟨1, _⟩ => show o + 1 * l.val = k.val; omega

/-! ## Reductions -/

/-- A sum along the columns, read at row `p`, is the sum of the row's entries. -/
theorem sum_cols {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ v 0x00000000#32 h hφ hacc (ix1 p) = ∑ l : Fin b, v (ix2 p l) := by
  refine (Ideal.multiReduction_add_single v 0x00000000#32 h hφ hacc (ix1 p)).trans ?_
  refine Finset.sum_congr rfl fun l _ => congrArg v (funext fun ax => Fin.ext ?_)
  match ax with
  | ⟨0, _⟩ => rfl
  | ⟨1, _⟩ => rfl

/-- A sum along the rows of a one-column array is the sum of its entries. -/
theorem sum_rows {a : ℕ} (v : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ) :
    multiReduction (F := Ideal) .add [0] ⟨1, ![1]⟩ v 0x00000000#32 h hφ hacc (ix1 (0 : Fin 1)) = ∑ p : Fin a, v (ix2 p (0 : Fin 1)) := by
  refine (Ideal.multiReduction_add_single v 0x00000000#32 h hφ hacc (ix1 (0 : Fin 1))).trans ?_
  refine Finset.sum_congr rfl fun p _ => congrArg v (funext fun ax => Fin.ext ?_)
  match ax with
  | ⟨0, _⟩ => rfl
  | ⟨1, _⟩ => rfl

/-! ## The three matrix products -/

theorem mm_enc_l0 (i : S512x128.Idx) (q : dot_S512x4096_S4096x128_S512x128_1_0_0_1_n_n.contr.Idx) : (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide),
    dif_pos (show (0 : Fin S512x4096.rank) ∈ dot_S512x4096_S4096x128_S512x128_1_0_0_1_n_n.lhsNonContracting by decide)]
  rfl
theorem mm_enc_r1 (i : S512x128.Idx) (q : dot_S512x4096_S4096x128_S512x128_1_0_0_1_n_n.contr.Idx) : (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide),
    dif_pos (show (1 : Fin S4096x128.rank) ∈ dot_S512x4096_S4096x128_S512x128_1_0_0_1_n_n.rhsNonContracting by decide)]
  rfl
/-- The product `[512, 4096] · [4096, 128]` into a zero accumulator, read at `(p, q)`: the sum over the contracted axis. -/
theorem mm_enc (l : FVec Ideal S512x4096 .bf16) (r : FVec Ideal S4096x128 .bf16) (p : Fin 512) (q : Fin 128) :
    matmul (F := Ideal) dot_S512x4096_S4096x128_S512x128_1_0_0_1_n_n none l r (constant (F := Ideal) S512x128 .f32 0x00000000#32) (ix2 p q)
      = ∑ k : Fin 4096, l (ix2 p k) * r (ix2 k q) := by
  refine (Ideal.matmul_constant_zero_apply dot_S512x4096_S4096x128_S512x128_1_0_0_1_n_n none l r (ix2 p q)).trans ?_
  rw [← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 p q) ((contrEquiv1 dot_S512x4096_S4096x128_S512x128_1_0_0_1_n_n 4096 rfl rfl).symm k) = ix2 p k :=
    funext fun ax => Fin.ext (by
      match ax with
      | ⟨0, _⟩ => exact mm_enc_l0 _ _
      | ⟨1, _⟩ => exact (dot_S512x4096_S4096x128_S512x128_1_0_0_1_n_n.lhsIdx_val_of_single rfl _ _).trans hk)
  have er : dot_S512x4096_S4096x128_S512x128_1_0_0_1_n_n.rhsIdx (ix2 p q) ((contrEquiv1 dot_S512x4096_S4096x128_S512x128_1_0_0_1_n_n 4096 rfl rfl).symm k) = ix2 k q :=
    funext fun ax => Fin.ext (by
      match ax with
      | ⟨0, _⟩ => exact (dot_S512x4096_S4096x128_S512x128_1_0_0_1_n_n.rhsIdx_val_of_single rfl _ _).trans hk
      | ⟨1, _⟩ => exact mm_enc_r1 _ _)
  rw [el, er]

theorem mm_scale_l0 (i : S512x1.Idx) (q : dot_S512x64_S64x1_S512x1_1_0_0_1_n_n.contr.Idx) : (dot_S512x64_S64x1_S512x1_1_0_0_1_n_n.lhsIdx i q 0).val = (i 0).val := by
  unfold DotDims.lhsIdx
  rw [dif_neg (show ¬(0 : Fin S512x64.rank) ∈ dot_S512x64_S64x1_S512x1_1_0_0_1_n_n.lhsBatch by decide),
    dif_pos (show (0 : Fin S512x64.rank) ∈ dot_S512x64_S64x1_S512x1_1_0_0_1_n_n.lhsNonContracting by decide)]
  rfl
theorem mm_scale_r1 (i : S512x1.Idx) (q : dot_S512x64_S64x1_S512x1_1_0_0_1_n_n.contr.Idx) : (dot_S512x64_S64x1_S512x1_1_0_0_1_n_n.rhsIdx i q 1).val = (i 1).val := by
  unfold DotDims.rhsIdx
  rw [dif_neg (show ¬(1 : Fin S64x1.rank) ∈ dot_S512x64_S64x1_S512x1_1_0_0_1_n_n.rhsBatch by decide),
    dif_pos (show (1 : Fin S64x1.rank) ∈ dot_S512x64_S64x1_S512x1_1_0_0_1_n_n.rhsNonContracting by decide)]
  rfl
/-- The product `[512, 64] · [64, 1]` into a zero accumulator, read at `(p, q)`: the sum over the contracted axis. -/
theorem mm_scale (l : FVec Ideal S512x64 .bf16) (r : FVec Ideal S64x1 .bf16) (p : Fin 512) (q : Fin 1) :
    matmul (F := Ideal) dot_S512x64_S64x1_S512x1_1_0_0_1_n_n none l r (constant (F := Ideal) S512x1 .f32 0x00000000#32) (ix2 p q)
      = ∑ k : Fin 64, l (ix2 p k) * r (ix2 k q) := by
  refine (Ideal.matmul_constant_zero_apply dot_S512x64_S64x1_S512x1_1_0_0_1_n_n none l r (ix2 p q)).trans ?_
  rw [← Equiv.sum_comp (contrEquiv1 dot_S512x64_S64x1_S512x1_1_0_0_1_n_n 64 rfl rfl).symm]
  refine Finset.sum_congr rfl fun k _ => ?_
  have hk := contrEquiv1_symm_val dot_S512x64_S64x1_S512x1_1_0_0_1_n_n 64 rfl rfl k
  have el : dot_S512x64_S64x1_S512x1_1_0_0_1_n_n.lhsIdx (ix2 p q) ((contrEquiv1 dot_S512x64_S64x1_S512x1_1_0_0_1_n_n 64 rfl rfl).symm k) = ix2 p k :=
    funext fun ax => Fin.ext (by
      match ax with
      | ⟨0, _⟩ => exact mm_scale_l0 _ _
      | ⟨1, _⟩ => exact (dot_S512x64_S64x1_S512x1_1_0_0_1_n_n.lhsIdx_val_of_single rfl _ _).trans hk)
  have er : dot_S512x64_S64x1_S512x1_1_0_0_1_n_n.rhsIdx (ix2 p q) ((contrEquiv1 dot_S512x64_S64x1_S512x1_1_0_0_1_n_n 64 rfl rfl).symm k) = ix2 k q :=
    funext fun ax => Fin.ext (by
      match ax with
      | ⟨0, _⟩ => exact (dot_S512x64_S64x1_S512x1_1_0_0_1_n_n.rhsIdx_val_of_single rfl _ _).trans hk
      | ⟨1, _⟩ => exact mm_scale_r1 _ _)
  rw [el, er]

theorem mm_dec_l0 (i : S512x512.Idx) (q : dot_S512x64_S64x512_S512x512_1_0_0_1_n_n.contr.Idx) : (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide),
    dif_pos (show (0 : Fin S512x64.rank) ∈ dot_S512x64_S64x512_S512x512_1_0_0_1_n_n.lhsNonContracting by decide)]
  rfl
theorem mm_dec_r1 (i : S512x512.Idx) (q : dot_S512x64_S64x512_S512x512_1_0_0_1_n_n.contr.Idx) : (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide),
    dif_pos (show (1 : Fin S64x512.rank) ∈ dot_S512x64_S64x512_S512x512_1_0_0_1_n_n.rhsNonContracting by decide)]
  rfl
/-- The product `[512, 64] · [64, 512]` into a zero accumulator, read at `(p, q)`: the sum over the contracted axis. -/
theorem mm_dec (l : FVec Ideal S512x64 .bf16) (r : FVec Ideal S64x512 .bf16) (p : Fin 512) (q : Fin 512) :
    matmul (F := Ideal) dot_S512x64_S64x512_S512x512_1_0_0_1_n_n none l r (constant (F := Ideal) S512x512 .f32 0x00000000#32) (ix2 p q)
      = ∑ k : Fin 64, l (ix2 p k) * r (ix2 k q) := by
  refine (Ideal.matmul_constant_zero_apply dot_S512x64_S64x512_S512x512_1_0_0_1_n_n none l r (ix2 p q)).trans ?_
  rw [← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 p q) ((contrEquiv1 dot_S512x64_S64x512_S512x512_1_0_0_1_n_n 64 rfl rfl).symm k) = ix2 p k :=
    funext fun ax => Fin.ext (by
      match ax with
      | ⟨0, _⟩ => exact mm_dec_l0 _ _
      | ⟨1, _⟩ => exact (dot_S512x64_S64x512_S512x512_1_0_0_1_n_n.lhsIdx_val_of_single rfl _ _).trans hk)
  have er : dot_S512x64_S64x512_S512x512_1_0_0_1_n_n.rhsIdx (ix2 p q) ((contrEquiv1 dot_S512x64_S64x512_S512x512_1_0_0_1_n_n 64 rfl rfl).symm k) = ix2 k q :=
    funext fun ax => Fin.ext (by
      match ax with
      | ⟨0, _⟩ => exact (dot_S512x64_S64x512_S512x512_1_0_0_1_n_n.rhsIdx_val_of_single rfl _ _).trans hk
      | ⟨1, _⟩ => exact mm_dec_r1 _ _)
  rw [el, er]

end Cert.KernelIdeal.KOps

end
-- ==== Proof.TileDef.lean ====
/-
  One grid point's partial sum as ONE term of the point's eight input blocks.

  The body computes, from the data block `x0` (512 rows), the noise block `x1`, the packed encoder weight `x2` and
  bias `x3`, the decoder weight `x4` and bias row `x5`, the decoder-scale weight `x6` and bias `x7`: the latent
  sample of each row, then the squared reconstruction error of each row accumulated over eight windows of 512
  columns (window w reads columns 512·w … 512·w + 511 of `x0`, `x4` and `x5`), then each row's contribution to the
  bound, and last the sum of the 512 contributions, a single number. `tileVal` is that number as the body's
  payloads composed; what it equals is proved elsewhere.
-/
import proofs.«103976_j42202348650518_2_alg».proof.Proof.Gen.KernelIdeal.Skeleton
import Idealize.ShloMosaic.Lib.Pipeline.Value

noncomputable section

namespace Cert.KernelIdeal.Tile

open Cert.KernelIdeal Cert.KernelIdeal.Gen Idealize.ShloMosaic

variable {F : FTy → Type} [FloatOps F]

/-- Columns `o … o + 511` of the data block. -/
abbrev colsX (x0 : Vec F S512x4096 .f32) (o : ℕ) (h : ∀ a, (![0, o] : Fin 2 → ℕ) a + S512x512.size a ≤ S512x4096.size a) :
    Vec F S512x512 .f32 := View.ld x0 (Rect.unit (s := S512x4096) ![0, o] S512x512.size h)
/-- Columns `o … o + 511` of the decoder weight. -/
abbrev colsD (x4 : Vec F S64x4096 .f32) (o : ℕ) (h : ∀ a, (![0, o] : Fin 2 → ℕ) a + S64x512.size a ≤ S64x4096.size a) :
    Vec F S64x512 .f32 := View.ld x4 (Rect.unit (s := S64x4096) ![0, o] S64x512.size h)
/-- Columns `o … o + 511` of the decoder bias row. -/
abbrev colsB (x5 : Vec F S1x4096 .f32) (o : ℕ) (h : ∀ a, (![0, o] : Fin 2 → ℕ) a + S1x512.size a ≤ S1x4096.size a) :
    Vec F S1x512 .f32 := View.ld x5 (Rect.unit (s := S1x4096) ![0, o] S1x512.size h)

/-- The latent sample of the block's rows, as the body holds it for its three decoder products. -/
abbrev zOf (x0 : Vec F S512x4096 .f32) (x1 : Vec F S512x64 .f32) (x2 : Vec F S4096x128 .f32) (x3 : Vec F S1x128 .f32) :
    FVec F S512x64 .bf16 := k0_pay8 x0 x2 x3 x1

/-- The rows' squared reconstruction errors, accumulated window by window from zero. -/
def sqErr (x0 : Vec F S512x4096 .f32) (x1 : Vec F S512x64 .f32) (x2 : Vec F S4096x128 .f32) (x3 : Vec F S1x128 .f32)
    (x4 : Vec F S64x4096 .f32) (x5 : Vec F S1x4096 .f32) : FVec F S512x1 .f32 :=
  k0_pay15 (zOf x0 x1 x2 x3)
    (k0_pay14 (zOf x0 x1 x2 x3)
      (k0_pay11 (zOf x0 x1 x2 x3) k0_pay10 (colsX x0 0 (by decide)) (colsD x4 0 (by decide)) (colsB x5 0 (by decide)) (colsX x0 512 (by decide)) (colsD x4 512 (by decide)) (colsB x5 512 (by decide)))
      (colsX x0 1024 (by decide)) (k0_pay12 (zOf x0 x1 x2 x3) (colsD x4 1024 (by decide))) (k0_pay13 (colsB x5 1024 (by decide)))
      (colsX x0 1536 (by decide)) (colsD x4 1536 (by decide)) (colsB x5 1536 (by decide)) (colsX x0 2048 (by decide)) (colsD x4 2048 (by decide)) (colsB x5 2048 (by decide)))
    (colsX x0 2560 (by decide)) (colsD x4 2560 (by decide)) (colsB x5 2560 (by decide)) (colsX x0 3072 (by decide)) (colsD x4 3072 (by decide)) (colsB x5 3072 (by decide))

/-- The point's partial sum, a `[1, 1]` array. -/
def tileVal (x0 : Vec F S512x4096 .f32) (x1 : Vec F S512x64 .f32) (x2 : Vec F S4096x128 .f32) (x3 : Vec F S1x128 .f32)
    (x4 : Vec F S64x4096 .f32) (x5 : Vec F S1x4096 .f32) (x6 : Vec F S64x1 .f32) (x7 : Vec F S1x1 .f32) : FVec F S1x1 .f32 :=
  k0_pay17 (k0_pay4 x0 x2 x3) (k0_pay6 x0 x2 x3 x1) (k0_pay7 x0 x2 x3) (zOf x0 x1 x2 x3) (k0_pay9 x0 x2 x3 x1 x6 x7)
    (sqErr x0 x1 x2 x3 x4 x5) (colsX x0 3584 (by decide)) (k0_pay16 (colsD x4 3584 (by decide))) (colsB x5 3584 (by decide))

end Cert.KernelIdeal.Tile

end
-- ==== Proof.Tile.lean ====
/-
  One grid point's partial sum is the specification's sum over the block's 512 rows.

  Row by row: the packed product of the data block with the packed weight, plus the packed bias, gives the encoder
  mean in its columns 0–63 and the encoder scale in column 64; the latent sample is the mean plus the squared
  scale times the noise; the decoder's product with a window of 512 columns of its weight, plus the same window of
  its bias, subtracted from the same window of the data and squared, summed along the window, is that window's
  share of the row's squared reconstruction error, and the eight windows' shares add up to the sum over all 4096
  columns; the three Gaussian log-densities are then the same expressions of the same quantities as in the
  specification; and the block's result is the sum of its rows' contributions.
-/
import proofs.«103976_j42202348650518_2_alg».proof.Proof.Spec
import proofs.«103976_j42202348650518_2_alg».proof.Proof.KOps
import proofs.«103976_j42202348650518_2_alg».proof.Proof.TileDef

noncomputable section

open scoped BigOperators

namespace Cert.KernelIdeal.Tile

open Cert.KernelIdeal Cert.KernelIdeal.Gen Idealize.ShloMosaic Idealize.ShloMosaic.ValueIdx

variable (x0 : Vec Ideal S512x4096 .f32) (x1 : Vec Ideal S512x64 .f32) (x2 : Vec Ideal S4096x128 .f32)
  (x3 : Vec Ideal S1x128 .f32) (x4 : Vec Ideal S64x4096 .f32) (x5 : Vec Ideal S1x4096 .f32)
  (x6 : Vec Ideal S64x1 .f32) (x7 : Vec Ideal S1x1 .f32)

/-! ## The block's rows and the parameters, as the specification takes them -/

abbrev rowX (p : Fin 512) : Fin 4096 → EReal := fun k => x0 (ix2 p k)
abbrev rowN (p : Fin 512) : Fin 64 → EReal := fun j => x1 (ix2 p j)
abbrev wMean : Fin 4096 → Fin 64 → EReal := fun k j => x2 (ix2 k (Fin.castLE (by decide : 64 ≤ 128) j))
abbrev bMean : Fin 64 → EReal := fun j => x3 (ix2 (0 : Fin 1) (Fin.castLE (by decide : 64 ≤ 128) j))
abbrev wScale : Fin 4096 → EReal := fun k => x2 (ix2 k (64 : Fin 128))
abbrev bScale : EReal := x3 (ix2 (0 : Fin 1) (64 : Fin 128))
abbrev wDec : Fin 64 → Fin 4096 → EReal := fun j l => x4 (ix2 j l)
abbrev bDec : Fin 4096 → EReal := fun l => x5 (ix2 (0 : Fin 1) l)
abbrev wDecScale : Fin 64 → EReal := fun j => x6 (ix2 j (0 : Fin 1))
abbrev bDecScale : EReal := x7 (ix2 (0 : Fin 1) (0 : Fin 1))

/-- The latent sample of row `p`. -/
abbrev lat (p : Fin 512) : Fin 64 → EReal :=
  Cert.Spec.latent (rowX x0 p) (rowN x1 p) (wMean x2) (bMean x3) (wScale x2) (bScale x3)

/-! ## The encoder -/

/-- The packed product plus the packed bias, at row `p` and packed column `q`. -/
theorem packed_apply (p : Fin 512) (q : Fin 128) :
    k0_pay3 x0 x2 x3 (ix2 p q) = (∑ k : Fin 4096, x0 (ix2 p k) * x2 (ix2 k q)) + x3 (ix2 (0 : Fin 1) q) := by
  unfold k0_pay3
  refine congrArg₂ (· + ·) ?_ ?_
  · refine (KOps.mm_enc _ _ p q).trans ?_
    refine Finset.sum_congr rfl fun k _ => ?_
    rw [shapeCast_self]
    rfl
  · refine (broadcastTo_1b_ab_apply _ _ p q).trans ?_
    rw [shapeCast_self]

/-- Columns 0–63 of it are the encoder mean. -/
theorem mean_apply (p : Fin 512) (j : Fin 64) :
    k0_pay4 x0 x2 x3 (ix2 p j) = Cert.Spec.encMean (rowX x0 p) (wMean x2) (bMean x3) j := by
  unfold k0_pay4
  refine (slice2_axis1_apply 0 _ _ p j (Fin.castLE (by decide : 64 ≤ 128) j) (by simp)).trans ?_
  exact packed_apply x0 x2 x3 p _

/-- Column 64 of it is the encoder scale. -/
theorem scale_apply (p : Fin 512) :
    k0_pay5 x0 x2 x3 (ix2 p (0 : Fin 1)) = Cert.Spec.encScale (rowX x0 p) (wScale x2) (bScale x3) := by
  unfold k0_pay5
  refine (slice2_axis1_apply 64 _ _ p (0 : Fin 1) (64 : Fin 128) (by decide)).trans ?_
  exact packed_apply x0 x2 x3 p _

/-- The latent sample: mean plus squared scale times noise. -/
theorem latent_apply (p : Fin 512) (j : Fin 64) : k0_pay6 x0 x2 x3 x1 (ix2 p j) = lat x0 x1 x2 x3 p j := by
  unfold k0_pay6
  refine congrArg₂ (· + ·) (mean_apply x0 x2 x3 p j) ?_
  refine congrArg₂ (· * ·) ?_ rfl
  refine (KOps.bcast_col _ _ p j).trans ?_
  exact congrArg₂ (· * ·) (scale_apply x0 x2 x3 p) (scale_apply x0 x2 x3 p)

/-- The same sample as the decoder's products take it (a change of float format is the identity). -/
theorem z_apply (p : Fin 512) (j : Fin 64) : zOf x0 x1 x2 x3 (ix2 p j) = lat x0 x1 x2 x3 p j :=
  latent_apply x0 x1 x2 x3 p j

/-- The encoder variance: the scale's fourth power. -/
theorem encVar_apply (p : Fin 512) :
    k0_pay7 x0 x2 x3 (ix2 p (0 : Fin 1)) = Cert.Spec.fourth (Cert.Spec.encScale (rowX x0 p) (wScale x2) (bScale x3)) := by
  unfold k0_pay7
  have h := scale_apply x0 x2 x3 p
  exact congrArg₂ (· * ·) (congrArg₂ (· * ·) h h) (congrArg₂ (· * ·) h h)

/-- The decoder variance: the decoder scale's fourth power. -/
theorem decVar_apply (p : Fin 512) :
    k0_pay9 x0 x2 x3 x1 x6 x7 (ix2 p (0 : Fin 1))
      = Cert.Spec.fourth (Cert.Spec.decScale (lat x0 x1 x2 x3 p) (wDecScale x6) (bDecScale x7)) := by
  unfold k0_pay9
  have h : (addf (matmul (F := Ideal) dot_S512x64_S64x1_S512x1_1_0_0_1_n_n none (k0_pay8 x0 x2 x3 x1)
        (truncf .bf16 x6 bitsLt_bf16_f32) (constant (F := Ideal) S512x1 .f32 0x00000000#32))
      (broadcastTo S512x1 (shapeCast S1x1 x7 shapeCasts_S1x1_S1x1) broadcasts_S1x1_S512x1)) (ix2 p (0 : Fin 1))
      = Cert.Spec.decScale (lat x0 x1 x2 x3 p) (wDecScale x6) (bDecScale x7) := by
    refine congrArg₂ (· + ·) ?_ ?_
    · refine (KOps.mm_scale _ _ p (0 : Fin 1)).trans ?_
      exact Finset.sum_congr rfl fun j _ => congrArg₂ (· * ·) (z_apply x0 x1 x2 x3 p j) rfl
    · refine (broadcastTo_1b_ab_apply _ _ p (0 : Fin 1)).trans ?_
      rw [shapeCast_self]
  exact congrArg₂ (· * ·) (congrArg₂ (· * ·) h h) (congrArg₂ (· * ·) h h)

/-! ## One window's share of the rows' squared reconstruction error -/

/-- The body's nine operations on one window of 512 columns: the decoder's product with the window of its weight,
    plus the window of its bias, subtracted from the window of the data, squared, summed along the window, as a column. -/
def share {F : FTy → Type} [FloatOps F] (v22 : FVec F S512x64 .bf16) (v36 : Vec F S512x512 .f32) (v38 : Vec F S64x512 .f32)
    (v41 : Vec F S1x512 .f32) : FVec F S512x1 .f32 :=
  have v39 : FVec F S64x512 .bf16 := truncf .bf16 v38 bitsLt_bf16_f32
  have v42 : FVec F S1x512 .f32 := shapeCast S1x512 v41 shapeCasts_S1x512_S1x512
  have cst_18 : FVec F S512x512 .f32 := constant S512x512 .f32 0x00000000#32
  have v43 : FVec F S512x512 .f32 := matmul dot_S512x64_S64x512_S512x512_1_0_0_1_n_n none v22 v39 cst_18
  have v44 : FVec F S512x512 .f32 := broadcastTo S512x512 v42 broadcasts_S1x512_S512x512
  have v45 : FVec F S512x512 .f32 := addf v43 v44
  have v46 : FVec F S512x512 .f32 := subf v36 v45
  have v47 : FVec F S512x512 .f32 := mulf v46 v46
  have v48 : FVec F S512 .f32 := multiReduction .add [1] S512 v47 0x00000000#32 reduces_S512x512_S512 (.inl rfl) rfl
  shapeCast S512x1 v48 shapeCasts_S512_S512x1

section Shares
variable {F : FTy → Type} [FloatOps F]

/-- The first two windows are added to the running sum in order. -/
theorem pay11_shares (z : FVec F S512x64 .bf16) (a : FVec F S512x1 .f32) (xa : Vec F S512x512 .f32) (wa : Vec F S64x512 .f32)
    (ba : Vec F S1x512 .f32) (xb : Vec F S512x512 .f32) (wb : Vec F S64x512 .f32) (bb : Vec F S1x512 .f32) :
    k0_pay11 z a xa wa ba xb wb bb = addf (addf a (share z xa wa ba)) (share z xb wb bb) := rfl

/-- The next three. -/
theorem pay14_shares (z : FVec F S512x64 .bf16) (a : FVec F S512x1 .f32) (xa : Vec F S512x512 .f32) (wa : Vec F S64x512 .f32)
    (ba : Vec F S1x512 .f32) (xb : Vec F S512x512 .f32) (wb : Vec F S64x512 .f32) (bb : Vec F S1x512 .f32)
    (xc : Vec F S512x512 .f32) (wc : Vec F S64x512 .f32) (bc : Vec F S1x512 .f32) :
    k0_pay14 z a xa (k0_pay12 z wa) (k0_pay13 ba) xb wb bb xc wc bc
      = addf (addf (addf a (share z xa wa ba)) (share z xb wb bb)) (share z xc wc bc) := rfl

/-- The next two. -/
theorem pay15_shares (z : FVec F S512x64 .bf16) (a : FVec F S512x1 .f32) (xa : Vec F S512x512 .f32) (wa : Vec F S64x512 .f32)
    (ba : Vec F S1x512 .f32) (xb : Vec F S512x512 .f32) (wb : Vec F S64x512 .f32) (bb : Vec F S1x512 .f32) :
    k0_pay15 z a xa wa ba xb wb bb = addf (addf a (share z xa wa ba)) (share z xb wb bb) := rfl

end Shares

/-- A window's share at row `p`: the sum over the window's columns of the squared difference between the data and
    the decoder's mean there. -/
theorem share_apply (z : FVec Ideal S512x64 .bf16) (xc : Vec Ideal S512x512 .f32) (wc : Vec Ideal S64x512 .f32)
    (bc : Vec Ideal S1x512 .f32) (p : Fin 512) :
    share z xc wc bc (ix2 p (0 : Fin 1))
      = ∑ l : Fin 512, (xc (ix2 p l) - ((∑ j : Fin 64, z (ix2 p j) * wc (ix2 j l)) + bc (ix2 (0 : Fin 1) l)))
          * (xc (ix2 p l) - ((∑ j : Fin 64, z (ix2 p j) * wc (ix2 j l)) + bc (ix2 (0 : Fin 1) l))) := by
  unfold share
  refine (KOps.cast_col _ _ p).trans ?_
  refine (KOps.sum_cols _ _ _ _ p).trans ?_
  refine Finset.sum_congr rfl fun l _ => ?_
  have h : (addf (matmul (F := Ideal) dot_S512x64_S64x512_S512x512_1_0_0_1_n_n none z (truncf .bf16 wc bitsLt_bf16_f32)
        (constant (F := Ideal) S512x512 .f32 0x00000000#32))
      (broadcastTo S512x512 (shapeCast S1x512 bc shapeCasts_S1x512_S1x512) broadcasts_S1x512_S512x512)) (ix2 p l)
      = (∑ j : Fin 64, z (ix2 p j) * wc (ix2 j l)) + bc (ix2 (0 : Fin 1) l) := by
    refine congrArg₂ (· + ·) (KOps.mm_dec _ _ p l) ?_
    refine (broadcastTo_1b_ab_apply _ _ p l).trans ?_
    rw [shapeCast_self]
  exact congrArg₂ (· * ·) (congrArg₂ (· - ·) rfl h) (congrArg₂ (· - ·) rfl h)

/-! ## The windows are the columns -/

/-- Window `o` of the data block, at `(p, l)`, is the block at `(p, o + l)`. -/
theorem colsX_apply (o : ℕ) (h) (p : Fin 512) (l : Fin 512) (k : Fin 4096) (hk : k.val = o + l.val) :
    colsX x0 o h (ix2 p l) = x0 (ix2 p k) := congrArg x0 (KOps.emb_cols o h p l k hk)
theorem colsD_apply (o : ℕ) (h) (j : Fin 64) (l : Fin 512) (k : Fin 4096) (hk : k.val = o + l.val) :
    colsD x4 o h (ix2 j l) = x4 (ix2 j k) := congrArg x4 (KOps.emb_cols o h j l k hk)
theorem colsB_apply (o : ℕ) (h) (l : Fin 512) (k : Fin 4096) (hk : k.val = o + l.val) :
    colsB x5 o h (ix2 (0 : Fin 1) l) = x5 (ix2 (0 : Fin 1) k) := congrArg x5 (KOps.emb_cols o h (0 : Fin 1) l k hk)

/-- The squared difference between the data and the decoder's mean at row `p`, column `k`. -/
abbrev dev (p : Fin 512) (k : Fin 4096) : EReal :=
  (x0 (ix2 p k) - Cert.Spec.decMean (lat x0 x1 x2 x3 p) (wDec x4) (bDec x5) k)
    * (x0 (ix2 p k) - Cert.Spec.decMean (lat x0 x1 x2 x3 p) (wDec x4) (bDec x5) k)

/-- Window `w`'s share at row `p` is the sum of the squared differences over columns `512·w … 512·w + 511`. -/
theorem window_share (w : Fin 8) (hX) (hD) (hB) (p : Fin 512) :
    share (zOf x0 x1 x2 x3) (colsX x0 (512 * w.val) hX) (colsD x4 (512 * w.val) hD) (colsB x5 (512 * w.val) hB) (ix2 p (0 : Fin 1))
      = ∑ l : Fin 512, dev x0 x1 x2 x3 x4 x5 p ⟨512 * w.val + l.val, by have := w.isLt; have := l.isLt; omega⟩ := by
  refine (share_apply _ _ _ _ p).trans ?_
  refine Finset.sum_congr rfl fun l _ => ?_
  have hx := colsX_apply x0 (512 * w.val) hX p l ⟨512 * w.val + l.val, by have := w.isLt; have := l.isLt; omega⟩ rfl
  have hb := colsB_apply x5 (512 * w.val) hB l ⟨512 * w.val + l.val, by have := w.isLt; have := l.isLt; omega⟩ rfl
  have hs : (∑ j : Fin 64, zOf x0 x1 x2 x3 (ix2 p j) * colsD x4 (512 * w.val) hD (ix2 j l))
      = ∑ j : Fin 64, lat x0 x1 x2 x3 p j * x4 (ix2 j ⟨512 * w.val + l.val, by have := w.isLt; have := l.isLt; omega⟩) :=
    Finset.sum_congr rfl fun j _ => congrArg₂ (· * ·) (z_apply x0 x1 x2 x3 p j)
      (colsD_apply x4 (512 * w.val) hD j l ⟨512 * w.val + l.val, by have := w.isLt; have := l.isLt; omega⟩ rfl)
  have hd : ((∑ j : Fin 64, zOf x0 x1 x2 x3 (ix2 p j) * colsD x4 (512 * w.val) hD (ix2 j l)) + colsB x5 (512 * w.val) hB (ix2 (0 : Fin 1) l))
      = Cert.Spec.decMean (lat x0 x1 x2 x3 p) (wDec x4) (bDec x5) ⟨512 * w.val + l.val, by have := w.isLt; have := l.isLt; omega⟩ :=
    congrArg₂ (· + ·) hs hb
  exact congrArg₂ (· * ·) (congrArg₂ (· - ·) hx hd) (congrArg₂ (· - ·) hx hd)

/-- A sum over 4096 columns is the sum over eight windows of 512. -/
theorem sum_windows {M : Type*} [AddCommMonoid M] (g : Fin 4096 → M) :
    ∑ k : Fin 4096, g k = ∑ w : Fin 8, ∑ l : Fin 512, g ⟨512 * w.val + l.val, by have := w.isLt; have := l.isLt; omega⟩ := by
  rw [← Fintype.sum_prod_type' (f := fun (w : Fin 8) (l : Fin 512) => g ⟨512 * w.val + l.val, by have := w.isLt; have := l.isLt; omega⟩)]
  refine (Fintype.sum_equiv (finProdFinEquiv (m := 8) (n := 512)).symm _ _ fun k => ?_)
  refine congrArg g (Fin.ext ?_)
  show k.val = 512 * (k.val / 512) + k.val % 512
  omega

/-! ## The rows' contributions and their sum -/

/-- The body's last operations: from the encoder mean `v13`, the latent sample `v19`, the two variances `v21` and
    `v31` and the rows' squared reconstruction errors `v176`, each row's three log-densities, their combination, and
    the sum over the rows, as a `[1, 1]` array. -/
def finish {F : FTy → Type} [FloatOps F] (v13 v19 : FVec F S512x64 .f32) (v21 v31 v176 : FVec F S512x1 .f32) : FVec F S1x1 .f32 :=
  have v177 : FVec F S512x64 .f32 := subf v19 v13
  have v178 : FVec F S512x64 .f32 := mulf v177 v177
  have v179 : FVec F S512 .f32 := multiReduction .add [1] S512 v178 0x00000000#32 reduces_S512x64_S512 (.inl rfl) rfl
  have v180 : FVec F S512x1 .f32 := shapeCast S512x1 v179 shapeCasts_S512_S512x1
  have v181 : FVec F S512x64 .f32 := mulf v19 v19
  have v182 : FVec F S512 .f32 := multiReduction .add [1] S512 v181 0x00000000#32 reduces_S512x64_S512 (.inl rfl) rfl
  have v183 : FVec F S512x1 .f32 := shapeCast S512x1 v182 shapeCasts_S512_S512x1
  have v184 : FVec F S512x1 .f32 := log v21
  have cst_64 : F .f32 := Scalar.ofBits .f32 0x42800000#32
  have v185 : FVec F S512x1 .f32 := broadcast S512x1 cst_64
  have v186 : FVec F S512x1 .f32 := mulf v185 v184
  have cst_65 : F .f32 := Scalar.ofBits .f32 0x42EB3F8E#32
  have v187 : FVec F S512x1 .f32 := broadcast S512x1 cst_65
  have v188 : FVec F S512x1 .f32 := addf v187 v186
  have v189 : FVec F S512x1 .f32 := divf v180 v21
  have v190 : FVec F S512x1 .f32 := addf v188 v189
  have cst_66 : F .f32 := Scalar.ofBits .f32 0xBF000000#32
  have v191 : FVec F S512x1 .f32 := broadcast S512x1 cst_66
  have v192 : FVec F S512x1 .f32 := mulf v191 v190
  have cst_67 : F .f32 := Scalar.ofBits .f32 0x42EB3F8E#32
  have v193 : FVec F S512x1 .f32 := broadcast S512x1 cst_67
  have v194 : FVec F S512x1 .f32 := addf v193 v183
  have cst_68 : F .f32 := Scalar.ofBits .f32 0xBF000000#32
  have v195 : FVec F S512x1 .f32 := broadcast S512x1 cst_68
  have v196 : FVec F S512x1 .f32 := mulf v195 v194
  have v197 : FVec F S512x1 .f32 := log v31
  have cst_69 : F .f32 := Scalar.ofBits .f32 0x45800000#32
  have v198 : FVec F S512x1 .f32 := broadcast S512x1 cst_69
  have v199 : FVec F S512x1 .f32 := mulf v198 v197
  have cst_70 : F .f32 := Scalar.ofBits .f32 0x45EB3F8E#32
  have v200 : FVec F S512x1 .f32 := broadcast S512x1 cst_70
  have v201 : FVec F S512x1 .f32 := addf v200 v199
  have v202 : FVec F S512x1 .f32 := divf v176 v31
  have v203 : FVec F S512x1 .f32 := addf v201 v202
  have cst_71 : F .f32 := Scalar.ofBits .f32 0xBF000000#32
  have v204 : FVec F S512x1 .f32 := broadcast S512x1 cst_71
  have v205 : FVec F S512x1 .f32 := mulf v204 v203
  have v206 : FVec F S512x1 .f32 := subf v192 v205
  have v207 : FVec F S512x1 .f32 := subf v206 v196
  have v208 : FVec F S1 .f32 := multiReduction .add [0] S1 v207 0x00000000#32 reduces_S512x1_S1 (.inl rfl) rfl
  shapeCast S1x1 v208 shapeCasts_S1_S1x1

/-- The last payload is the eighth window's share added to the running sum, then `finish`. -/
theorem pay17_finish {F : FTy → Type} [FloatOps F] (v13 v19 : FVec F S512x64 .f32) (v21 : FVec F S512x1 .f32)
    (z : FVec F S512x64 .bf16) (v31 a : FVec F S512x1 .f32) (x : Vec F S512x512 .f32) (w : Vec F S64x512 .f32) (b : Vec F S1x512 .f32) :
    k0_pay17 v13 v19 v21 z v31 a x (k0_pay16 w) b = finish v13 v19 v21 v31 (addf a (share z x w b)) := rfl

/-- `finish` read at its one index: the sum over the rows of each row's combination of the three log-densities. -/
theorem finish_apply (v13 v19 : FVec Ideal S512x64 .f32) (v21 v31 v176 : FVec Ideal S512x1 .f32) :
    finish v13 v19 v21 v31 v176 (ix2 (0 : Fin 1) (0 : Fin 1))
      = ∑ p : Fin 512,
          ((Cert.Spec.cH * ((Cert.Spec.cKL + Cert.Spec.cK * Ideal.log (v21 (ix2 p (0 : Fin 1))))
              + Ideal.div (∑ j : Fin 64, (v19 (ix2 p j) - v13 (ix2 p j)) * (v19 (ix2 p j) - v13 (ix2 p j))) (v21 (ix2 p (0 : Fin 1))))
            - Cert.Spec.cH * ((Cert.Spec.cML + Cert.Spec.cM * Ideal.log (v31 (ix2 p (0 : Fin 1))))
              + Ideal.div (v176 (ix2 p (0 : Fin 1))) (v31 (ix2 p (0 : Fin 1)))))
            - Cert.Spec.cH * (Cert.Spec.cKL + ∑ j : Fin 64, v19 (ix2 p j) * v19 (ix2 p j))) := by
  unfold finish
  refine (shapeCast_a_1a_apply _ _ (0 : Fin 1) (0 : Fin 1)).trans ?_
  refine (KOps.sum_rows _ _ _ _).trans ?_
  refine Finset.sum_congr rfl fun p _ => ?_
  have hpost : (shapeCast S512x1 (multiReduction (F := Ideal) .add [1] S512 (mulf (subf v19 v13) (subf v19 v13)) 0x00000000#32
        reduces_S512x64_S512 (.inl rfl) rfl) shapeCasts_S512_S512x1) (ix2 p (0 : Fin 1))
      = ∑ j : Fin 64, (v19 (ix2 p j) - v13 (ix2 p j)) * (v19 (ix2 p j) - v13 (ix2 p j)) :=
    (KOps.cast_col _ _ p).trans (KOps.sum_cols _ _ _ _ p)
  have hprior : (shapeCast S512x1 (multiReduction (F := Ideal) .add [1] S512 (mulf v19 v19) 0x00000000#32
        reduces_S512x64_S512 (.inl rfl) rfl) shapeCasts_S512_S512x1) (ix2 p (0 : Fin 1))
      = ∑ j : Fin 64, v19 (ix2 p j) * v19 (ix2 p j) :=
    (KOps.cast_col _ _ p).trans (KOps.sum_cols _ _ _ _ p)
  refine congrArg₂ (· - ·) (congrArg₂ (· - ·) ?_ rfl) ?_
  · exact congrArg₂ (· * ·) rfl (congrArg₂ (· + ·) rfl (congrArg₂ Ideal.div hpost rfl))
  · exact congrArg₂ (· * ·) rfl (congrArg₂ (· + ·) rfl hprior)

/-- The running sum after the first seven windows, then the eighth: at row `p`, the sum of the squared differences
    over all 4096 columns. -/
theorem sqErr_total (p : Fin 512) :
    (addf (sqErr x0 x1 x2 x3 x4 x5) (share (zOf x0 x1 x2 x3) (colsX x0 3584 (by decide)) (colsD x4 3584 (by decide)) (colsB x5 3584 (by decide)))) (ix2 p (0 : Fin 1))
      = ∑ k : Fin 4096, dev x0 x1 x2 x3 x4 x5 p k := by
  have e : sqErr x0 x1 x2 x3 x4 x5
      = addf (addf (addf (addf (addf (addf (addf k0_pay10 (share (zOf x0 x1 x2 x3) (colsX x0 0 (by decide)) (colsD x4 0 (by decide)) (colsB x5 0 (by decide)))) (share (zOf x0 x1 x2 x3) (colsX x0 512 (by decide)) (colsD x4 512 (by decide)) (colsB x5 512 (by decide)))) (share (zOf x0 x1 x2 x3) (colsX x0 1024 (by decide)) (colsD x4 1024 (by decide)) (colsB x5 1024 (by decide)))) (share (zOf x0 x1 x2 x3) (colsX x0 1536 (by decide)) (colsD x4 1536 (by decide)) (colsB x5 1536 (by decide)))) (share (zOf x0 x1 x2 x3) (colsX x0 2048 (by decide)) (colsD x4 2048 (by decide)) (colsB x5 2048 (by decide)))) (share (zOf x0 x1 x2 x3) (colsX x0 2560 (by decide)) (colsD x4 2560 (by decide)) (colsB x5 2560 (by decide)))) (share (zOf x0 x1 x2 x3) (colsX x0 3072 (by decide)) (colsD x4 3072 (by decide)) (colsB x5 3072 (by decide))) := rfl
  rw [e, sum_windows, Fin.sum_univ_eight]
  have h0 : (k0_pay10 (F := Ideal)) (ix2 p (0 : Fin 1)) = 0 := Ideal.ofBits_zero_f32
  have hw := fun (w : Fin 8) (hX) (hD) (hB) => window_share x0 x1 x2 x3 x4 x5 w hX hD hB p
  refine congrArg₂ (· + ·) (congrArg₂ (· + ·) (congrArg₂ (· + ·) (congrArg₂ (· + ·) (congrArg₂ (· + ·) (congrArg₂ (· + ·)
    (congrArg₂ (· + ·) ?_ (hw 1 _ _ _)) (hw 2 _ _ _)) (hw 3 _ _ _)) (hw 4 _ _ _)) (hw 5 _ _ _)) (hw 6 _ _ _)) (hw 7 _ _ _)
  exact (congrArg₂ (· + ·) h0 (hw 0 _ _ _)).trans (zero_add _)

/-- One grid point's partial sum is the sum over the block's rows of the specification's row term. -/
theorem tile_eq :
    tileVal x0 x1 x2 x3 x4 x5 x6 x7 (ix2 (0 : Fin 1) (0 : Fin 1)) = Cert.Spec.tileSum x0 x1 x2 x3 x4 x5 x6 x7 := by
  unfold tileVal
  rw [pay17_finish]
  refine (finish_apply _ _ _ _ _).trans ?_
  unfold Cert.Spec.tileSum
  refine Finset.sum_congr rfl fun p _ => ?_
  unfold Cert.Spec.rowTerm Cert.Spec.contrib
  have hz : ∀ j, k0_pay6 x0 x2 x3 x1 (ix2 p j) = lat x0 x1 x2 x3 p j := latent_apply x0 x1 x2 x3 p
  have hm : ∀ j, k0_pay4 x0 x2 x3 (ix2 p j) = Cert.Spec.encMean (rowX x0 p) (wMean x2) (bMean x3) j := mean_apply x0 x2 x3 p
  have hvz := encVar_apply x0 x2 x3 p
  have hvx := decVar_apply x0 x1 x2 x3 x6 x7 p
  have herr := sqErr_total x0 x1 x2 x3 x4 x5 p
  have hpost : (∑ j : Fin 64, (k0_pay6 x0 x2 x3 x1 (ix2 p j) - k0_pay4 x0 x2 x3 (ix2 p j)) * (k0_pay6 x0 x2 x3 x1 (ix2 p j) - k0_pay4 x0 x2 x3 (ix2 p j)))
      = ∑ j : Fin 64, (lat x0 x1 x2 x3 p j - Cert.Spec.encMean (rowX x0 p) (wMean x2) (bMean x3) j)
          * (lat x0 x1 x2 x3 p j - Cert.Spec.encMean (rowX x0 p) (wMean x2) (bMean x3) j) :=
    Finset.sum_congr rfl fun j _ => by rw [hz j, hm j]
  have hprior : (∑ j : Fin 64, k0_pay6 x0 x2 x3 x1 (ix2 p j) * k0_pay6 x0 x2 x3 x1 (ix2 p j))
      = ∑ j : Fin 64, lat x0 x1 x2 x3 p j * lat x0 x1 x2 x3 p j :=
    Finset.sum_congr rfl fun j _ => by rw [hz j]
  rw [hpost, hprior, hvz, hvx, herr]

end Cert.KernelIdeal.Tile

end
-- ==== Proof.Packed.lean ====
/-
  The arrays the kernel's region finds, read at an index.

  Before its region the program packs two encoder weights into one array and two encoder biases into one row, each by
  two "set" scatters into zeros — the mean's columns 0–63 first, then the scale's column 64 —, and views the decoder
  bias as one row and the decoder-scale bias as a one-by-one array. Read at an index, each packed entry is the
  argument's entry: a "set" scatter read at an index is the update that lands there when exactly one does, and the
  operand when none does.
-/
import proofs.«103976_j42202348650518_2_alg».proof.Proof.Gen.KernelIdeal.Frame
import Idealize.ShloMosaic.Lib.ValueIdx
import Idealize.ShloMosaic.Lib.Pipeline.Value
import Idealize.ShloMosaic.Lib.StableHlo.Run

noncomputable section

namespace Cert.Packed

open Idealize.ShloMosaic Idealize.ShloMosaic.TcCoe Idealize.ShloMosaic.ValueIdx
open Cert.KernelIdeal Cert.KernelIdeal.Gen

/-! ## A "set" scatter read at an index

`Host.scatter` is a left fold over the update indices in row-major order; with the update function returning the
update, each step overwrites the one element its update index lands at (or nothing, when it lands outside). Read at a
fixed result index `i`: a step whose update index does not land at `i` leaves the element, a step whose index lands at
`i` makes it that update. So the fold at `i` is the operand when no update index lands there, and the update at `j` when
`j` is the only update index that lands there. Both by induction on the list of steps. -/

section Fold
variable {ι α N : Type}

/-- A fold of overwriting steps read at `i`, when no step of the list lands at `i`: the start value. -/
theorem foldl_set_miss (g : N → Option ι) (step : (ι → α) → N → (ι → α)) (i : ι)
    (h_miss : ∀ r n, g n ≠ some i → step r n i = r i) :
    ∀ (L : List N) (x : ι → α), (∀ n ∈ L, g n ≠ some i) → L.foldl step x i = x i := by
  intro L
  induction L with
  | nil => intro x _; rfl
  | cons a L ih =>
    intro x h
    rw [List.foldl_cons, ih (step x a) fun n hn => h n (List.mem_cons_of_mem a hn)]
    exact h_miss x a (h a List.mem_cons_self)

/-- A fold of overwriting steps read at `i`, when `n₀` is in the list, lands at `i`, and is the only member that does:
    the value `n₀` writes. -/
theorem foldl_set_hit (g : N → Option ι) (v : N → α) (step : (ι → α) → N → (ι → α)) (i : ι)
    (h_hit : ∀ r n, g n = some i → step r n i = v n)
    (h_miss : ∀ r n, g n ≠ some i → step r n i = r i) (n₀ : N) (h₀ : g n₀ = some i) :
    ∀ (L : List N) (x : ι → α), n₀ ∈ L → (∀ n ∈ L, g n = some i → n = n₀) → L.foldl step x i = v n₀ := by
  intro L
  induction L with
  | nil => intro x hmem _; exact absurd hmem List.not_mem_nil
  | cons a L ih =>
    intro x hmem huniq
    rw [List.foldl_cons]
    by_cases hL : n₀ ∈ L
    · exact ih (step x a) hL fun n hn => huniq n (List.mem_cons_of_mem a hn)
    · have ha : a = n₀ := by
        rcases List.mem_cons.1 hmem with h | h
        · exact h.symm
        · exact absurd h hL
      subst ha
      rw [foldl_set_miss g step i h_miss L (step x a) fun n hn hg =>
        hL (huniq n (List.mem_cons_of_mem a hn) hg ▸ hn)]
      exact h_hit x a h₀

end Fold

section Scatter
variable {s si u : Shape} {α : Type} {w : Nat}

/-- One step of a "set" scatter read at the index its update index lands at: the update. -/
private theorem scatter_step_hit (d : ScatterDims s si u) (idx : IVec si w) (upd : u.Idx → α) (i : s.Idx)
    (r : s.Idx → α) (n : Fin u.numel) (h : d.resultIdx? (u.rowMajor.symm n) idx = some i) :
    (match d.resultIdx? (u.rowMajor.symm n) idx with
      | some i₀ => fun i' => if i' = i₀ then (fun (_ b : α) => b) (r i₀) (upd (u.rowMajor.symm n)) else r i'
      | none => r) i = upd (u.rowMajor.symm n) := by
  rw [h]; exact if_pos rfl

/-- One step of a "set" scatter read at an index its update index does not land at: unchanged. -/
private theorem scatter_step_miss (d : ScatterDims s si u) (idx : IVec si w) (upd : u.Idx → α) (i : s.Idx)
    (r : s.Idx → α) (n : Fin u.numel) (h : d.resultIdx? (u.rowMajor.symm n) idx ≠ some i) :
    (match d.resultIdx? (u.rowMajor.symm n) idx with
      | some i₀ => fun i' => if i' = i₀ then (fun (_ b : α) => b) (r i₀) (upd (u.rowMajor.symm n)) else r i'
      | none => r) i = r i := by
  cases hg : d.resultIdx? (u.rowMajor.symm n) idx with
  | none => rfl
  | some i₀ =>
    have hne : i ≠ i₀ := fun e => h (by rw [hg, e])
    exact if_neg hne

/-- A "set" scatter read at an index no update index lands at: the operand there. -/
theorem scatter_set_miss (d : ScatterDims s si u) (x : s.Idx → α) (idx : IVec si w) (upd : u.Idx → α) (i : s.Idx)
    (hmiss : ∀ j : u.Idx, d.resultIdx? j idx ≠ some i) :
    Host.scatter d (fun _ b => b) x idx upd i = x i := by
  unfold Host.scatter
  exact foldl_set_miss (fun n => d.resultIdx? (u.rowMajor.symm n) idx) _ i
    (fun r n h => scatter_step_miss d idx upd i r n h) _ x fun n _ => hmiss _

/-- A "set" scatter read at an index where update index `j`, and no other, lands: the update at `j`. -/
theorem scatter_set_hit (d : ScatterDims s si u) (x : s.Idx → α) (idx : IVec si w) (upd : u.Idx → α) (i : s.Idx)
    (j : u.Idx) (hj : d.resultIdx? j idx = some i) (huniq : ∀ j' : u.Idx, d.resultIdx? j' idx = some i → j' = j) :
    Host.scatter d (fun _ b => b) x idx upd i = upd j := by
  unfold Host.scatter
  have e := foldl_set_hit (fun n => d.resultIdx? (u.rowMajor.symm n) idx) (fun n => upd (u.rowMajor.symm n)) _ i
    (fun r n h => scatter_step_hit d idx upd i r n h) (fun r n h => scatter_step_miss d idx upd i r n h)
    (u.rowMajor j) (by show d.resultIdx? (u.rowMajor.symm (u.rowMajor j)) idx = some i; rw [Equiv.symm_apply_apply]; exact hj)
    (List.finRange u.numel) x (List.mem_finRange _)
    (fun n _ hn => by rw [← huniq _ hn, Equiv.apply_symm_apply])
  exact e.trans (congrArg upd (Equiv.symm_apply_apply _ _))

/-- Where an update index lands, as arithmetic: it lands at `i` exactly when on every axis the start plus the window
    coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hin
      have e := congrFun (Option.some.inj h) a
      have e' := congrArg Fin.val e
      have := hin a
      simp only at e'
      omega
    · exact absurd h (by simp)
  · intro h
    have hin : ∀ a, 0 ≤ d.start j idx a + d.window j a ∧ d.start j idx a + d.window j a < s.size a := by
      intro a; have := h a; have := (i a).isLt; omega
    rw [dif_pos hin]
    congr 1
    funext a
    apply Fin.ext
    have := h a
    show (d.start j idx a + d.window j a).toNat = (i a).val
    omega

end Scatter

/-! ## Where the four scatters' update indices land

Each record's window coordinate on the two result axes is a coordinate of the update index or `0`; its start is read
off the index buffer. With the buffer's entries known, "update index `j` lands at `i`" is two equations between
coordinates. -/

section Records

/-- A scatter's start on axis `a` when every scatter index holds the same value: that value on an axis the map
    names, `0` on the others. -/
theorem start_of_const {s si u : Shape} {w : Nat} (d : ScatterDims s si u) (j : u.Idx) (idx : IVec si w) (z : Int)
    (h : ∀ k, (idx k).toInt = z) (a : Fin s.rank) :
    d.start j idx a = if a ∈ d.scatterDimsToOperandDims then z else 0 := by
  unfold ScatterDims.start
  by_cases ha : a ∈ d.scatterDimsToOperandDims
  · rw [dif_pos ha, if_pos ha]; exact h _
  · rw [dif_neg ha, if_neg ha]

theorem window1_0 (j : S4096x64.Idx) : scatter_S4096x128_S1_S4096x64_01_n_1_0.window j (0 : Fin 2) = (j 0).val := rfl
theorem window1_1 (j : S4096x64.Idx) : scatter_S4096x128_S1_S4096x64_01_n_1_0.window j (1 : Fin 2) = (j 1).val := rfl
theorem window2_0 (j : S4096.Idx) : scatter_S4096x128_S1_S4096_0_1_1_0.window j (0 : Fin 2) = (j 0).val := rfl
theorem window2_1 (j : S4096.Idx) : scatter_S4096x128_S1_S4096_0_1_1_0.window j (1 : Fin 2) = 0 := rfl
theorem window3_0 (j : S64.Idx) : scatter_S1x128_S2_S64_0_0_01_0.window j (0 : Fin 2) = 0 := rfl
theorem window3_1 (j : S64.Idx) : scatter_S1x128_S2_S64_0_0_01_0.window j (1 : Fin 2) = (j 0).val := rfl
theorem window4_0 (j : S_.Idx) : scatter_S1x128_S2_S__n_01_01_0.window j (0 : Fin 2) = 0 := rfl
theorem window4_1 (j : S_.Idx) : scatter_S1x128_S2_S__n_01_01_0.window j (1 : Fin 2) = 0 := rfl

/-- The whole window of the first weight scatter, its one start `0`: update `(r, q)` lands at `(r, q)`. -/
theorem lands1 (idx : IVec S1 32) (h : ∀ k, (idx k).toInt = 0) (j : S4096x64.Idx) (i : S4096x128.Idx) :
    scatter_S4096x128_S1_S4096x64_01_n_1_0.resultIdx? j idx = some i ↔ (j 0).val = (i 0).val ∧ (j 1).val = (i 1).val := by
  rw [resultIdx?_eq_some_iff]
  have s0 : scatter_S4096x128_S1_S4096x64_01_n_1_0.start j idx (0 : Fin 2) = 0 := by
    rw [start_of_const _ _ _ 0 h]; exact ite_self _
  have s1 : scatter_S4096x128_S1_S4096x64_01_n_1_0.start j idx (1 : Fin 2) = 0 := by
    rw [start_of_const _ _ _ 0 h]; exact ite_self _
  constructor
  · intro h'
    have h0 := h' (0 : Fin 2); have h1 := h' (1 : Fin 2)
    rw [s0, window1_0] at h0; rw [s1, window1_1] at h1
    constructor <;> omega
  · rintro ⟨h0, h1⟩ a
    match a with
    | ⟨0, _⟩ =>
      show scatter_S4096x128_S1_S4096x64_01_n_1_0.start j idx (0 : Fin 2) + (scatter_S4096x128_S1_S4096x64_01_n_1_0.window j (0 : Fin 2) : Int) = ((i 0).val : Int)
      rw [s0, window1_0]; omega
    | ⟨1, _⟩ =>
      show scatter_S4096x128_S1_S4096x64_01_n_1_0.start j idx (1 : Fin 2) + (scatter_S4096x128_S1_S4096x64_01_n_1_0.window j (1 : Fin 2) : Int) = ((i 1).val : Int)
      rw [s1, window1_1]; omega

/-- The one column of the second weight scatter, its one start `64`: update `r` lands at `(r, 64)`. -/
theorem lands2 (idx : IVec S1 32) (h : ∀ k, (idx k).toInt = 64) (j : S4096.Idx) (i : S4096x128.Idx) :
    scatter_S4096x128_S1_S4096_0_1_1_0.resultIdx? j idx = some i ↔ (j 0).val = (i 0).val ∧ 64 = (i 1).val := by
  rw [resultIdx?_eq_some_iff]
  have s0 : scatter_S4096x128_S1_S4096_0_1_1_0.start j idx (0 : Fin 2) = 0 := by
    rw [start_of_const _ _ _ 64 h]; exact if_neg (by decide)
  have s1 : scatter_S4096x128_S1_S4096_0_1_1_0.start j idx (1 : Fin 2) = 64 := by
    rw [start_of_const _ _ _ 64 h]; exact if_pos (by decide)
  constructor
  · intro h'
    have h0 := h' (0 : Fin 2); have h1 := h' (1 : Fin 2)
    rw [s0, window2_0] at h0; rw [s1, window2_1] at h1
    constructor <;> omega
  · rintro ⟨h0, h1⟩ a
    match a with
    | ⟨0, _⟩ =>
      show scatter_S4096x128_S1_S4096_0_1_1_0.start j idx (0 : Fin 2) + (scatter_S4096x128_S1_S4096_0_1_1_0.window j (0 : Fin 2) : Int) = ((i 0).val : Int)
      rw [s0, window2_0]; omega
    | ⟨1, _⟩ =>
      show scatter_S4096x128_S1_S4096_0_1_1_0.start j idx (1 : Fin 2) + (scatter_S4096x128_S1_S4096_0_1_1_0.window j (1 : Fin 2) : Int) = ((i 1).val : Int)
      rw [s1, window2_1]; omega

/-- The bias scatters read their start off a two-entry index vector: entry `0` for the row, entry `1` for the column. -/
theorem start3_0 (j : S64.Idx) (idx : IVec S2 32) : scatter_S1x128_S2_S64_0_0_01_0.start j idx (0 : Fin 2) = (idx (ix1 (0 : Fin 2))).toInt := by
  unfold ScatterDims.start
  rw [dif_pos (by decide)]
  congr 2
  funext b
  match b with | ⟨0, _⟩ => rfl
theorem start3_1 (j : S64.Idx) (idx : IVec S2 32) : scatter_S1x128_S2_S64_0_0_01_0.start j idx (1 : Fin 2) = (idx (ix1 (1 : Fin 2))).toInt := by
  unfold ScatterDims.start
  rw [dif_pos (by decide)]
  congr 2
  funext b
  match b with | ⟨0, _⟩ => rfl
theorem start4_0 (j : S_.Idx) (idx : IVec S2 32) : scatter_S1x128_S2_S__n_01_01_0.start j idx (0 : Fin 2) = (idx (ix1 (0 : Fin 2))).toInt := by
  unfold ScatterDims.start
  rw [dif_pos (by decide)]
  congr 2
  funext b
  match b with | ⟨0, _⟩ => rfl
theorem start4_1 (j : S_.Idx) (idx : IVec S2 32) : scatter_S1x128_S2_S__n_01_01_0.start j idx (1 : Fin 2) = (idx (ix1 (1 : Fin 2))).toInt := by
  unfold ScatterDims.start
  rw [dif_pos (by decide)]
  congr 2
  funext b
  match b with | ⟨0, _⟩ => rfl

/-- The first bias scatter, start `(0, z)`: update `q` lands at `(0, z + q)`. -/
theorem lands3 (idx : IVec S2 32) (z : Nat) (h0 : (idx (ix1 (0 : Fin 2))).toInt = 0) (h1 : (idx (ix1 (1 : Fin 2))).toInt = z)
    (j : S64.Idx) (i : S1x128.Idx) :
    scatter_S1x128_S2_S64_0_0_01_0.resultIdx? j idx = some i ↔ 0 = (i 0).val ∧ z + (j 0).val = (i 1).val := by
  rw [resultIdx?_eq_some_iff]
  constructor
  · intro h'
    have e0 := h' (0 : Fin 2); have e1 := h' (1 : Fin 2)
    rw [start3_0, h0, window3_0] at e0; rw [start3_1, h1, window3_1] at e1
    constructor <;> omega
  · rintro ⟨e0, e1⟩ a
    match a with
    | ⟨0, _⟩ =>
      show scatter_S1x128_S2_S64_0_0_01_0.start j idx (0 : Fin 2) + (scatter_S1x128_S2_S64_0_0_01_0.window j (0 : Fin 2) : Int) = ((i 0).val : Int)
      rw [start3_0, h0, window3_0]; omega
    | ⟨1, _⟩ =>
      show scatter_S1x128_S2_S64_0_0_01_0.start j idx (1 : Fin 2) + (scatter_S1x128_S2_S64_0_0_01_0.window j (1 : Fin 2) : Int) = ((i 1).val : Int)
      rw [start3_1, h1, window3_1]; omega

/-- The second bias scatter, start `(0, z)`: its one update lands at `(0, z)`. -/
theorem lands4 (idx : IVec S2 32) (z : Nat) (h0 : (idx (ix1 (0 : Fin 2))).toInt = 0) (h1 : (idx (ix1 (1 : Fin 2))).toInt = z)
    (j : S_.Idx) (i : S1x128.Idx) :
    scatter_S1x128_S2_S__n_01_01_0.resultIdx? j idx = some i ↔ 0 = (i 0).val ∧ z = (i 1).val := by
  rw [resultIdx?_eq_some_iff]
  constructor
  · intro h'
    have e0 := h' (0 : Fin 2); have e1 := h' (1 : Fin 2)
    rw [start4_0, h0, window4_0] at e0; rw [start4_1, h1, window4_1] at e1
    constructor <;> omega
  · rintro ⟨e0, e1⟩ a
    match a with
    | ⟨0, _⟩ =>
      show scatter_S1x128_S2_S__n_01_01_0.start j idx (0 : Fin 2) + (scatter_S1x128_S2_S__n_01_01_0.window j (0 : Fin 2) : Int) = ((i 0).val : Int)
      rw [start4_0, h0, window4_0]; omega
    | ⟨1, _⟩ =>
      show scatter_S1x128_S2_S__n_01_01_0.start j idx (1 : Fin 2) + (scatter_S1x128_S2_S__n_01_01_0.window j (1 : Fin 2) : Int) = ((i 1).val : Int)
      rw [start4_1, h1, window4_1]; omega

end Records

/-! ## The packed arrays read at an index -/

section Packed

/-- A two-entry index vector concatenated from two one-entry ones: entry `0` is the first's. -/
theorem concat2_at0 (a b : IVec S1 32) :
    (concatenate S2 0 [⟨S1, a⟩, ⟨S1, b⟩] Facts₀.concatenates_S1_S1_S2_d0 : IVec S2 32) (ix1 (0 : Fin 2)) = a (ix1 (0 : Fin 1)) :=
  concatenate_pair_apply_left (t := S2) (s₁ := S1) (s₂ := S1) 0 a b _ _ rfl _ (fun b => by match b with | ⟨0, _⟩ => rfl)
/-- … and entry `1` is the second's. -/
theorem concat2_at1 (a b : IVec S1 32) :
    (concatenate S2 0 [⟨S1, a⟩, ⟨S1, b⟩] Facts₀.concatenates_S1_S1_S2_d0 : IVec S2 32) (ix1 (1 : Fin 2)) = b (ix1 (0 : Fin 1)) :=
  concatenate_pair_apply_right (t := S2) (s₁ := S1) (s₂ := S1) 0 a b _ _ rfl rfl _
    (fun b hb => by match b with | ⟨0, _⟩ => exact absurd rfl hb) rfl

variable (m : (ℓ : Loc nD τ sig) → Buf (Elt Ideal) ℓ) (c : Dev nD)

/-- The packed encoder weight as the region finds it: zeros, then the mean's weight written at columns 0–63, then the
    scale's weight written at column 64. -/
theorem V_main_v5 : (Gen.V m c main_v5 : S4096x128.Idx → EReal)
    = Host.scatter scatter_S4096x128_S1_S4096_0_1_1_0 (fun _ b => b)
        (Host.scatter scatter_S4096x128_S1_S4096x64_01_n_1_0 (fun _ b => b)
          (broadcastInDim S4096x128 ![] Facts₀.bcast_S_S4096x128 (constant (F := Ideal) S_ .f32 0x00000000#32))
          (broadcastInDim S1 ![] Facts₀.bcast_S_S1 (constantI S_ 32 0#32) : IVec S1 32) (m ((c : Thread nD τ).loc main_arg2) : S4096x64.Idx → EReal))
        (broadcastInDim S1 ![] Facts₀.bcast_S_S1 (constantI S_ 32 64#32) : IVec S1 32)
        (shapeCast S4096 (m ((c : Thread nD τ).loc main_arg4) : S4096x1.Idx → EReal) Facts₀.shapeCasts_S4096x1_S4096) := by
  show StableHlo.after Gen.hostOps0 (fun b => m (c, b)) (Proc.devRef .tc main_v5) = _
  after_results
  rfl

/-- The packed encoder bias as the region finds it: one row of zeros, then the mean's bias written at columns 0–63, then
    the scale's bias written at column 64. -/
theorem V_main_v15 : (Gen.V m c main_v15 : S1x128.Idx → EReal)
    = Host.scatter scatter_S1x128_S2_S__n_01_01_0 (fun _ b => b)
        (Host.scatter scatter_S1x128_S2_S64_0_0_01_0 (fun _ b => b)
          (broadcastInDim S1x128 ![] Facts₀.bcast_S_S1x128 (constant (F := Ideal) S_ .f32 0x00000000#32))
          (concatenate S2 0 [⟨S1, (broadcastInDim S1 ![] Facts₀.bcast_S_S1 (constantI S_ 32 0#32) : IVec S1 32)⟩, ⟨S1, (broadcastInDim S1 ![] Facts₀.bcast_S_S1 (constantI S_ 32 0#32) : IVec S1 32)⟩] Facts₀.concatenates_S1_S1_S2_d0 : IVec S2 32)
          (m ((c : Thread nD τ).loc main_arg3) : S64.Idx → EReal))
        (concatenate S2 0 [⟨S1, (broadcastInDim S1 ![] Facts₀.bcast_S_S1 (constantI S_ 32 0#32) : IVec S1 32)⟩, ⟨S1, (broadcastInDim S1 ![] Facts₀.bcast_S_S1 (constantI S_ 32 64#32) : IVec S1 32)⟩] Facts₀.concatenates_S1_S1_S2_d0 : IVec S2 32)
        (shapeCast S_ (m ((c : Thread nD τ).loc main_arg5) : S1.Idx → EReal) Facts₀.shapeCasts_S1_S_) := by
  show StableHlo.after Gen.hostOps0 (fun b => m (c, b)) (Proc.devRef .tc main_v15) = _
  after_results
  rfl

theorem toInt_I0 (k : S1.Idx) : ((broadcastInDim S1 ![] Facts₀.bcast_S_S1 (constantI S_ 32 0#32) : IVec S1 32) k).toInt = 0 := by
  show (0#32 : BitVec 32).toInt = 0; decide
theorem toInt_I64 (k : S1.Idx) : ((broadcastInDim S1 ![] Facts₀.bcast_S_S1 (constantI S_ 32 64#32) : IVec S1 32) k).toInt = 64 := by
  show (64#32 : BitVec 32).toInt = 64; decide

/-- Columns 0–63 of the packed encoder weight are the mean's weight. -/
theorem packW_mu (k : Fin 4096) (j : Fin 64) :
    (Gen.V m c main_v5 : S4096x128.Idx → EReal) (ix2 k (Fin.castLE (by decide : 64 ≤ 128) j)) = (m ((c : Thread nD τ).loc main_arg2) : S4096x64.Idx → EReal) (ix2 k j) := by
  rw [V_main_v5]
  refine (scatter_set_miss _ _ _ _ _ fun j' h' => ?_).trans ?_
  · have h1 := ((lands2 _ toInt_I64 j' _).1 h').2
    have e : ((ix2 k (Fin.castLE (by decide : 64 ≤ 128) j) : S4096x128.Idx) 1).val = j.val := rfl
    have := j.isLt
    omega
  · refine scatter_set_hit _ _ _ _ _ (ix2 k j) ((lands1 _ toInt_I0 _ _).2 ⟨rfl, rfl⟩) fun j' h' => ?_
    obtain ⟨h0, h1⟩ := (lands1 _ toInt_I0 j' _).1 h'
    funext a
    match a with
    | ⟨0, _⟩ => exact Fin.ext h0
    | ⟨1, _⟩ => exact Fin.ext h1

/-- Column 64 of the packed encoder weight is the scale's weight. -/
theorem packW_sig (k : Fin 4096) :
    (Gen.V m c main_v5 : S4096x128.Idx → EReal) (ix2 k (64 : Fin 128)) = (m ((c : Thread nD τ).loc main_arg4) : S4096x1.Idx → EReal) (ix2 k (0 : Fin 1)) := by
  rw [V_main_v5]
  refine (scatter_set_hit _ _ _ _ _ (ix1 k) ((lands2 _ toInt_I64 _ _).2 ⟨rfl, rfl⟩) fun j' h' => ?_).trans ?_
  · have h0 := ((lands2 _ toInt_I64 j' _).1 h').1
    funext a
    match a with
    | ⟨0, _⟩ => exact Fin.ext h0
  · refine shapeCast_apply (s := S4096x1) (t := S4096) _ _ _ _ ?_
    show (S4096x1.rowMajor (ix2 k (0 : Fin 1))).val = (S4096.rowMajor (ix1 k)).val
    rw [Shape.rowMajor_val_one, Shape.rowMajor_val_two]
    show k.val * 1 + 0 = k.val
    omega

end Packed

section PackedBias
variable (m : (ℓ : Loc nD τ sig) → Buf (Elt Ideal) ℓ) (c : Dev nD)

theorem toInt_C00_0 : ((concatenate S2 0 [⟨S1, (broadcastInDim S1 ![] Facts₀.bcast_S_S1 (constantI S_ 32 0#32) : IVec S1 32)⟩, ⟨S1, (broadcastInDim S1 ![] Facts₀.bcast_S_S1 (constantI S_ 32 0#32) : IVec S1 32)⟩] Facts₀.concatenates_S1_S1_S2_d0 : IVec S2 32) (ix1 (0 : Fin 2))).toInt = 0 := by
  rw [concat2_at0]; exact toInt_I0 _
theorem toInt_C00_1 : ((concatenate S2 0 [⟨S1, (broadcastInDim S1 ![] Facts₀.bcast_S_S1 (constantI S_ 32 0#32) : IVec S1 32)⟩, ⟨S1, (broadcastInDim S1 ![] Facts₀.bcast_S_S1 (constantI S_ 32 0#32) : IVec S1 32)⟩] Facts₀.concatenates_S1_S1_S2_d0 : IVec S2 32) (ix1 (1 : Fin 2))).toInt = ((0 : Nat) : Int) := by
  rw [concat2_at1]; exact toInt_I0 _
theorem toInt_C064_0 : ((concatenate S2 0 [⟨S1, (broadcastInDim S1 ![] Facts₀.bcast_S_S1 (constantI S_ 32 0#32) : IVec S1 32)⟩, ⟨S1, (broadcastInDim S1 ![] Facts₀.bcast_S_S1 (constantI S_ 32 64#32) : IVec S1 32)⟩] Facts₀.concatenates_S1_S1_S2_d0 : IVec S2 32) (ix1 (0 : Fin 2))).toInt = 0 := by
  rw [concat2_at0]; exact toInt_I0 _
theorem toInt_C064_1 : ((concatenate S2 0 [⟨S1, (broadcastInDim S1 ![] Facts₀.bcast_S_S1 (constantI S_ 32 0#32) : IVec S1 32)⟩, ⟨S1, (broadcastInDim S1 ![] Facts₀.bcast_S_S1 (constantI S_ 32 64#32) : IVec S1 32)⟩] Facts₀.concatenates_S1_S1_S2_d0 : IVec S2 32) (ix1 (1 : Fin 2))).toInt = ((64 : Nat) : Int) := by
  rw [concat2_at1]; exact toInt_I64 _

/-- Columns 0–63 of the packed encoder bias are the mean's bias. -/
theorem packB_mu (j : Fin 64) :
    (Gen.V m c main_v15 : S1x128.Idx → EReal) (ix2 (0 : Fin 1) (Fin.castLE (by decide : 64 ≤ 128) j)) = (m ((c : Thread nD τ).loc main_arg3) : S64.Idx → EReal) (ix1 j) := by
  rw [V_main_v15]
  have e : ((ix2 (0 : Fin 1) (Fin.castLE (by decide : 64 ≤ 128) j) : S1x128.Idx) 1).val = j.val := rfl
  refine (scatter_set_miss _ _ _ _ _ fun j' h' => ?_).trans ?_
  · have h1 := ((lands4 _ 64 toInt_C064_0 toInt_C064_1 j' _).1 h').2
    have := j.isLt
    omega
  · refine scatter_set_hit _ _ _ _ _ (ix1 j) ((lands3 _ 0 toInt_C00_0 toInt_C00_1 _ _).2 ⟨rfl, ?_⟩) fun j' h' => ?_
    · show 0 + j.val = j.val; omega
    · have h1 := ((lands3 _ 0 toInt_C00_0 toInt_C00_1 j' _).1 h').2
      funext a
      match a with
      | ⟨0, _⟩ => exact Fin.ext (by show (j' 0).val = j.val; omega)

/-- Column 64 of the packed encoder bias is the scale's bias. -/
theorem packB_sig :
    (Gen.V m c main_v15 : S1x128.Idx → EReal) (ix2 (0 : Fin 1) (64 : Fin 128)) = (m ((c : Thread nD τ).loc main_arg5) : S1.Idx → EReal) (ix1 (0 : Fin 1)) := by
  rw [V_main_v15]
  refine (scatter_set_hit _ _ _ _ _ ix0 ((lands4 _ 64 toInt_C064_0 toInt_C064_1 _ _).2 ⟨rfl, rfl⟩) fun j' _ => eq_ix0 j').trans ?_
  refine shapeCast_apply (s := S1) (t := S_) _ _ _ _ ?_
  show (S1.rowMajor (ix1 (0 : Fin 1))).val = (S_.rowMajor ix0).val
  rw [Shape.rowMajor_val_one]
  exact (Shape.rowMajorPi_zero _ _).symm

end PackedBias

section Reshapes
variable (m : (ℓ : Loc nD τ sig) → Buf (Elt Ideal) ℓ) (c : Dev nD)

/-! ## The two reshapes -/

/-- The decoder bias as the region finds it: the argument viewed as one row. -/
theorem decB_row (l : Fin 4096) :
    (Gen.V m c main_v16 : S1x4096.Idx → EReal) (ix2 (0 : Fin 1) l) = (m ((c : Thread nD τ).loc main_arg7) : S4096.Idx → EReal) (ix1 l) := by
  have e : (Gen.V m c main_v16 : S1x4096.Idx → EReal)
      = shapeCast S1x4096 (m ((c : Thread nD τ).loc main_arg7) : S4096.Idx → EReal) Facts₀.shapeCasts_S4096_S1x4096 := by
    show StableHlo.after Gen.hostOps0 (fun b => m (c, b)) (Proc.devRef .tc main_v16) = _
    after_results
    rfl
  rw [e]
  refine shapeCast_apply (s := S4096) (t := S1x4096) _ _ _ _ ?_
  show (S4096.rowMajor (ix1 l)).val = (S1x4096.rowMajor (ix2 (0 : Fin 1) l)).val
  rw [Shape.rowMajor_val_one, Shape.rowMajor_val_two]
  show l.val = 0 * 4096 + l.val
  omega

/-- The decoder-scale bias as the region finds it: the argument viewed as a one-by-one array. -/
theorem decS_bias :
    (Gen.V m c main_v17 : S1x1.Idx → EReal) (ix2 (0 : Fin 1) (0 : Fin 1)) = (m ((c : Thread nD τ).loc main_arg9) : S1.Idx → EReal) (ix1 (0 : Fin 1)) := by
  have e : (Gen.V m c main_v17 : S1x1.Idx → EReal)
      = shapeCast S1x1 (m ((c : Thread nD τ).loc main_arg9) : S1.Idx → EReal) Facts₀.shapeCasts_S1_S1x1 := by
    show StableHlo.after Gen.hostOps0 (fun b => m (c, b)) (Proc.devRef .tc main_v17) = _
    after_results
    rfl
  rw [e]
  refine shapeCast_apply (s := S1) (t := S1x1) _ _ _ _ ?_
  show (S1.rowMajor (ix1 (0 : Fin 1))).val = (S1x1.rowMajor (ix2 (0 : Fin 1) (0 : Fin 1))).val
  rw [Shape.rowMajor_val_one, Shape.rowMajor_val_two]
  rfl

end Reshapes

end Cert.Packed

end
-- ==== Proof.Blocks.lean ====
/-
  The blocks the kernel's region stages are rows of the arrays, and the 16384 rows are 32 blocks of 512.

  The region runs over a grid of 32 points. At point `t` the data and noise windows hold rows `512 t … 512 t + 511` of
  their arrays; the six other input windows hold their whole arrays at every point. So the sum over the points of each
  point's sum over its 512 rows is the sum over all 16384 rows: a finite sum over `Fin (32 · 512)` regrouped as a double
  sum.
-/
import proofs.«103976_j42202348650518_2_alg».proof.Proof.Packed
import proofs.«103976_j42202348650518_2_alg».proof.Proof.Spec
import proofs.«103976_j42202348650518_2_alg».proof.Proof.Gen.KernelIdeal.Frame
import Idealize.ShloMosaic.Lib.ValueIdx
import Idealize.ShloMosaic.Lib.Pipeline.Value

noncomputable section

open scoped BigOperators

namespace Cert.KernelIdeal.Blocks

open Idealize.ShloMosaic Idealize.ShloMosaic.TcCoe Idealize.ShloMosaic.ValueIdx
open Cert.KernelIdeal Cert.KernelIdeal.Gen

/-! ## The windows' block indices over the grid -/

/-- The printed index maps, decided once over the 32 points: the data and noise windows sit at block `(t, 0)`, the
    six others at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A point's number is below 32. -/
theorem point_lt (t : Fin cfg0.N) : t.val < 32 := lt_of_lt_of_eq t.isLt N_0

/-- Row `p` of block `t` is a row of the array. -/
theorem row_lt (t : Fin cfg0.N) (p : Fin 512) : 512 * t.val + p.val < 16384 := by
  have := point_lt t; have := p.isLt; omega

section Blocks
variable (m : (ℓ : Loc nD τ sig) → Buf (Elt Ideal) ℓ) (c : Dev nD)

/-! ## Each window's block read off its array -/

/-- The data block at point `t` is rows `512 t … 512 t + 511` of the data. -/
theorem blk_x (t : Fin cfg0.N) (p : Fin 512) (k : Fin 4096) :
    (Gen.iblk m c 0 t : S512x4096.Idx → EReal) (ix2 p k)
      = (m ((c : Thread nD τ).loc main_arg0) : S16384x4096.Idx → EReal) (ix2 (⟨512 * t.val + p.val, row_lt t p⟩ : Fin 16384) k) := by
  obtain ⟨e0, e1, -⟩ := idx_facts t
  unfold Gen.iblk
  rw [View.read_apply]
  show Gen.V m c main_arg0 _ = _
  rw [Gen.V_main_arg0]
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 4096 + 1 * k.val = k.val; rw [e1]; omega

/-- The noise block at point `t` is rows `512 t … 512 t + 511` of the noise. -/
theorem blk_n (t : Fin cfg0.N) (p : Fin 512) (j : Fin 64) :
    (Gen.iblk m c 1 t : S512x64.Idx → EReal) (ix2 p j)
      = (m ((c : Thread nD τ).loc main_arg1) : S16384x64.Idx → EReal) (ix2 (⟨512 * t.val + p.val, row_lt t p⟩ : Fin 16384) j) := by
  obtain ⟨-, -, e0, e1, -⟩ := idx_facts t
  unfold Gen.iblk
  rw [View.read_apply]
  show Gen.V m c main_arg1 _ = _
  rw [Gen.V_main_arg1]
  congr 1
  funext a
  apply Fin.ext
  match a with
  | ⟨0, _⟩ => show win0_1.index t (0 : Fin 2) * 512 + 1 * p.val = 512 * t.val + p.val; rw [e0]; omega
  | ⟨1, _⟩ => show win0_1.index t (1 : Fin 2) * 64 + 1 * j.val = j.val; rw [e1]; omega

/-- The packed-weight block at every point is the whole packed weight. -/
theorem blk_W (t : Fin cfg0.N) (k : Fin 4096) (q : Fin 128) :
    (Gen.iblk m c 2 t : S4096x128.Idx → EReal) (ix2 k q) = (Gen.V m c main_v5 : S4096x128.Idx → EReal) (ix2 k q) := by
  obtain ⟨-, -, -, -, e0, e1, -⟩ := idx_facts t
  unfold Gen.iblk
  rw [View.read_apply]
  show Gen.V m c main_v5 _ = _
  congr 1
  funext a
  apply Fin.ext
  match a with
  | ⟨0, _⟩ => show win0_2.index t (0 : Fin 2) * 4096 + 1 * k.val = k.val; rw [e0]; omega
  | ⟨1, _⟩ => show win0_2.index t (1 : Fin 2) * 128 + 1 * q.val = q.val; rw [e1]; omega

/-- The packed-bias block at every point is the whole packed bias. -/
theorem blk_b (t : Fin cfg0.N) (z : Fin 1) (q : Fin 128) :
    (Gen.iblk m c 3 t : S1x128.Idx → EReal) (ix2 z q) = (Gen.V m c main_v15 : S1x128.Idx → EReal) (ix2 z q) := by
  obtain ⟨-, -, -, -, -, -, e0, e1, -⟩ := idx_facts t
  unfold Gen.iblk
  rw [View.read_apply]
  show Gen.V m c main_v15 _ = _
  congr 1
  funext a
  apply Fin.ext
  match a with
  | ⟨0, _⟩ => show win0_3.index t (0 : Fin 2) * 1 + 1 * z.val = z.val; rw [e0]; omega
  | ⟨1, _⟩ => show win0_3.index t (1 : Fin 2) * 128 + 1 * q.val = q.val; rw [e1]; omega

/-- The decoder-weight block at every point is the whole decoder weight. -/
theorem blk_Wd (t : Fin cfg0.N) (j : Fin 64) (l : Fin 4096) :
    (Gen.iblk m c 4 t : S64x4096.Idx → EReal) (ix2 j l) = (m ((c : Thread nD τ).loc main_arg6) : S64x4096.Idx → EReal) (ix2 j l) := by
  obtain ⟨-, -, -, -, -, -, -, -, e0, e1, -⟩ := idx_facts t
  unfold Gen.iblk
  rw [View.read_apply]
  show Gen.V m c main_arg6 _ = _
  rw [Gen.V_main_arg6]
  congr 1
  funext a
  apply Fin.ext
  match a with
  | ⟨0, _⟩ => show win0_4.index t (0 : Fin 2) * 64 + 1 * j.val = j.val; rw [e0]; omega
  | ⟨1, _⟩ => show win0_4.index t (1 : Fin 2) * 4096 + 1 * l.val = l.val; rw [e1]; omega

/-- The decoder-bias block at every point is the whole decoder-bias row. -/
theorem blk_bd (t : Fin cfg0.N) (z : Fin 1) (l : Fin 4096) :
    (Gen.iblk m c 5 t : S1x4096.Idx → EReal) (ix2 z l) = (Gen.V m c main_v16 : S1x4096.Idx → EReal) (ix2 z l) := by
  obtain ⟨-, -, -, -, -, -, -, -, -, -, e0, e1, -⟩ := idx_facts t
  unfold Gen.iblk
  rw [View.read_apply]
  show Gen.V m c main_v16 _ = _
  congr 1
  funext a
  apply Fin.ext
  match a with
  | ⟨0, _⟩ => show win0_5.index t (0 : Fin 2) * 1 + 1 * z.val = z.val; rw [e0]; omega
  | ⟨1, _⟩ => show win0_5.index t (1 : Fin 2) * 4096 + 1 * l.val = l.val; rw [e1]; omega

/-- The decoder-scale-weight block at every point is the whole decoder-scale weight. -/
theorem blk_Wt (t : Fin cfg0.N) (j : Fin 64) (z : Fin 1) :
    (Gen.iblk m c 6 t : S64x1.Idx → EReal) (ix2 j z) = (m ((c : Thread nD τ).loc main_arg8) : S64x1.Idx → EReal) (ix2 j z) := by
  obtain ⟨-, -, -, -, -, -, -, -, -, -, -, -, e0, e1, -⟩ := idx_facts t
  unfold Gen.iblk
  rw [View.read_apply]
  show Gen.V m c main_arg8 _ = _
  rw [Gen.V_main_arg8]
  congr 1
  funext a
  apply Fin.ext
  match a with
  | ⟨0, _⟩ => show win0_6.index t (0 : Fin 2) * 64 + 1 * j.val = j.val; rw [e0]; omega
  | ⟨1, _⟩ => show win0_6.index t (1 : Fin 2) * 1 + 1 * z.val = z.val; rw [e1]; omega

/-- The decoder-scale-bias block at every point is the whole one-by-one array. -/
theorem blk_bt (t : Fin cfg0.N) (y : Fin 1) (z : Fin 1) :
    (Gen.iblk m c 7 t : S1x1.Idx → EReal) (ix2 y z) = (Gen.V m c main_v17 : S1x1.Idx → EReal) (ix2 y z) := by
  obtain ⟨-, -, -, -, -, -, -, -, -, -, -, -, -, -, e0, e1⟩ := idx_facts t
  unfold Gen.iblk
  rw [View.read_apply]
  show Gen.V m c main_v17 _ = _
  congr 1
  funext a
  apply Fin.ext
  match a with
  | ⟨0, _⟩ => show win0_7.index t (0 : Fin 2) * 1 + 1 * y.val = y.val; rw [e0]; omega
  | ⟨1, _⟩ => show win0_7.index t (1 : Fin 2) * 1 + 1 * z.val = z.val; rw [e1]; omega

end Blocks

/-! ## A point's sum is the sum over its 512 rows of the arrays -/

section Rows
variable (m : (ℓ : Loc nD τ sig) → Buf (Elt Ideal) ℓ) (c : Dev nD)

/-- A row's term depends only on its ten arguments. -/
theorem rowTerm_congr {x x' : Fin 4096 → EReal} {ε ε' : Fin 64 → EReal} {Wμ Wμ' : Fin 4096 → Fin 64 → EReal}
    {bμ bμ' : Fin 64 → EReal} {Wσ Wσ' : Fin 4096 → EReal} {bσ bσ' : EReal} {Wd Wd' : Fin 64 → Fin 4096 → EReal}
    {bd bd' : Fin 4096 → EReal} {Wτ Wτ' : Fin 64 → EReal} {bτ bτ' : EReal}
    (h1 : x = x') (h2 : ε = ε') (h3 : Wμ = Wμ') (h4 : bμ = bμ') (h5 : Wσ = Wσ') (h6 : bσ = bσ') (h7 : Wd = Wd')
    (h8 : bd = bd') (h9 : Wτ = Wτ') (h10 : bτ = bτ') :
    Cert.Spec.rowTerm x ε Wμ bμ Wσ bσ Wd bd Wτ bτ = Cert.Spec.rowTerm x' ε' Wμ' bμ' Wσ' bσ' Wd' bd' Wτ' bτ' := by
  subst h1 h2 h3 h4 h5 h6 h7 h8 h9 h10; rfl

/-- The sum a point's blocks give is the sum of the row terms of rows `512 t … 512 t + 511` of the argument arrays. -/
theorem tile_rows (t : Fin cfg0.N) :
    Cert.Spec.tileSum (Gen.iblk m c 0 t) (Gen.iblk m c 1 t) (Gen.iblk m c 2 t) (Gen.iblk m c 3 t) (Gen.iblk m c 4 t)
        (Gen.iblk m c 5 t) (Gen.iblk m c 6 t) (Gen.iblk m c 7 t)
      = ∑ p : Fin 512, Cert.Spec.rowTerm
          (fun k => (m ((c : Thread nD τ).loc main_arg0) : S16384x4096.Idx → EReal) (ix2 (⟨512 * t.val + p.val, row_lt t p⟩ : Fin 16384) k))
          (fun j => (m ((c : Thread nD τ).loc main_arg1) : S16384x64.Idx → EReal) (ix2 (⟨512 * t.val + p.val, row_lt t p⟩ : Fin 16384) j))
          (fun k j => (m ((c : Thread nD τ).loc main_arg2) : S4096x64.Idx → EReal) (ix2 k j)) (fun j => (m ((c : Thread nD τ).loc main_arg3) : S64.Idx → EReal) (ix1 j))
          (fun k => (m ((c : Thread nD τ).loc main_arg4) : S4096x1.Idx → EReal) (ix2 k (0 : Fin 1))) ((m ((c : Thread nD τ).loc main_arg5) : S1.Idx → EReal) (ix1 (0 : Fin 1)))
          (fun j l => (m ((c : Thread nD τ).loc main_arg6) : S64x4096.Idx → EReal) (ix2 j l)) (fun l => (m ((c : Thread nD τ).loc main_arg7) : S4096.Idx → EReal) (ix1 l))
          (fun j => (m ((c : Thread nD τ).loc main_arg8) : S64x1.Idx → EReal) (ix2 j (0 : Fin 1))) ((m ((c : Thread nD τ).loc main_arg9) : S1.Idx → EReal) (ix1 (0 : Fin 1))) := by
  unfold Cert.Spec.tileSum
  refine Finset.sum_congr rfl fun p _ => ?_
  exact rowTerm_congr
    (funext fun k => blk_x m c t p k)
    (funext fun j => blk_n m c t p j)
    (funext fun k => funext fun j => (blk_W m c t k _).trans (Cert.Packed.packW_mu m c k j))
    (funext fun j => (blk_b m c t _ _).trans (Cert.Packed.packB_mu m c j))
    (funext fun k => (blk_W m c t k _).trans (Cert.Packed.packW_sig m c k))
    ((blk_b m c t _ _).trans (Cert.Packed.packB_sig m c))
    (funext fun j => funext fun l => blk_Wd m c t j l)
    (funext fun l => (blk_bd m c t _ l).trans (Cert.Packed.decB_row m c l))
    (funext fun j => blk_Wt m c t j _)
    ((blk_bt m c t _ _).trans (Cert.Packed.decS_bias m c))

end Rows

/-! ## 16384 rows are 32 blocks of 512 -/

/-- A sum over `Fin 16384` regrouped as 32 consecutive runs of 512, in any commutative additive monoid. -/
theorem sum_rows_eq_sum_blocks {M : Type} [AddCommMonoid M] (f : Fin 16384 → M) :
    ∑ r : Fin 16384, f r
      = ∑ t : Fin 32, ∑ p : Fin 512, f ⟨512 * t.val + p.val, by have := t.isLt; have := p.isLt; omega⟩ := by
  have e : ∑ r : Fin 16384, f r = ∑ x : Fin 32 × Fin 512, f ((finProdFinEquiv : Fin 32 × Fin 512 ≃ Fin (32 * 512)) x) :=
    (Equiv.sum_comp (finProdFinEquiv : Fin 32 × Fin 512 ≃ Fin (32 * 512)) f).symm
  rw [e, Fintype.sum_prod_type]
  refine Finset.sum_congr rfl fun t _ => Finset.sum_congr rfl fun p _ => congrArg f (Fin.ext ?_)
  show p.val + 512 * t.val = 512 * t.val + p.val
  omega

section Total
variable (m : (ℓ : Loc nD τ sig) → Buf (Elt Ideal) ℓ) (c : Dev nD)

/-- The sum over the 32 points of each point's sum is the whole result over the ten argument arrays. -/
theorem blocks_total :
    ∑ t : Fin cfg0.N, Cert.Spec.tileSum (Gen.iblk m c 0 t) (Gen.iblk m c 1 t) (Gen.iblk m c 2 t) (Gen.iblk m c 3 t)
        (Gen.iblk m c 4 t) (Gen.iblk m c 5 t) (Gen.iblk m c 6 t) (Gen.iblk m c 7 t)
      = Cert.Spec.total (m ((c : Thread nD τ).loc main_arg0) : S16384x4096.Idx → EReal) (m ((c : Thread nD τ).loc main_arg1) : S16384x64.Idx → EReal) (m ((c : Thread nD τ).loc main_arg2) : S4096x64.Idx → EReal) (m ((c : Thread nD τ).loc main_arg3) : S64.Idx → EReal)
          (m ((c : Thread nD τ).loc main_arg4) : S4096x1.Idx → EReal) (m ((c : Thread nD τ).loc main_arg5) : S1.Idx → EReal) (m ((c : Thread nD τ).loc main_arg6) : S64x4096.Idx → EReal) (m ((c : Thread nD τ).loc main_arg7) : S4096.Idx → EReal)
          (m ((c : Thread nD τ).loc main_arg8) : S64x1.Idx → EReal) (m ((c : Thread nD τ).loc main_arg9) : S1.Idx → EReal) := by
  unfold Cert.Spec.total
  rw [sum_rows_eq_sum_blocks]
  refine (Finset.sum_congr rfl fun t _ => tile_rows m c t).trans ?_
  exact Equiv.sum_comp (finCongr N_0) fun t' : Fin 32 => ∑ p : Fin 512, Cert.Spec.rowTerm
          (fun k => (m ((c : Thread nD τ).loc main_arg0) : S16384x4096.Idx → EReal) (ix2 (⟨512 * t'.val + p.val, by have := t'.isLt; have := p.isLt; omega⟩ : Fin 16384) k))
          (fun j => (m ((c : Thread nD τ).loc main_arg1) : S16384x64.Idx → EReal) (ix2 (⟨512 * t'.val + p.val, by have := t'.isLt; have := p.isLt; omega⟩ : Fin 16384) j))
          (fun k j => (m ((c : Thread nD τ).loc main_arg2) : S4096x64.Idx → EReal) (ix2 k j)) (fun j => (m ((c : Thread nD τ).loc main_arg3) : S64.Idx → EReal) (ix1 j))
          (fun k => (m ((c : Thread nD τ).loc main_arg4) : S4096x1.Idx → EReal) (ix2 k (0 : Fin 1))) ((m ((c : Thread nD τ).loc main_arg5) : S1.Idx → EReal) (ix1 (0 : Fin 1)))
          (fun j l => (m ((c : Thread nD τ).loc main_arg6) : S64x4096.Idx → EReal) (ix2 j l)) (fun l => (m ((c : Thread nD τ).loc main_arg7) : S4096.Idx → EReal) (ix1 l))
          (fun j => (m ((c : Thread nD τ).loc main_arg8) : S64x1.Idx → EReal) (ix2 j (0 : Fin 1))) ((m ((c : Thread nD τ).loc main_arg9) : S1.Idx → EReal) (ix1 (0 : Fin 1)))

end Total

end Cert.KernelIdeal.Blocks

end
-- ==== Proof.Accum.lean ====
/-
  What the kernel's output array holds after the run.

  The grid has 32 points; point `t` reads tile `t` of the data (512 rows) and of the noise, and the whole of the
  eight parameter arrays. The first point stores zero in a one-element scratch and adds its tile's partial sum to
  it; every later point adds its own; the last point also copies the scratch to the output block, the only block
  that is written back. So the output array's one entry is, after the run, the sum over the 32 points of the
  tiles' partial sums: zero plus the partial sums added in point order, which over the extended reals is their sum.
-/
import proofs.«103976_j42202348650518_2_alg».proof.Proof.Gen.KernelIdeal.Frame
import proofs.«103976_j42202348650518_2_alg».proof.Proof.TileDef
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators

namespace Cert.KernelIdeal.Accum

open Cert.KernelIdeal Cert.KernelIdeal.Gen Cert.KernelIdeal.Tile
open Idealize.ShloMosaic Idealize.ShloMosaic.TcCoe Idealize.ShloMosaic.Tactic
open Idealize.SL Idealize.SL.Sem
open Idealize.ShloMosaic.ValueIdx
open Idealize.ShloMosaic.Pipeline (Dat)

/-! ## What each control case leaves, for any float instance -/

section Cases

variable {F : FTy → Type} [FloatOps F]

variable (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S64x4096 .f32) (harg5 : arg5.IsWhole) (arg6 : Memref sig .tc .vmem S1x4096 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole)
    (x0 : Vec F S512x4096 .f32) (x1 : Vec F S512x64 .f32) (x2 : Vec F S4096x128 .f32) (x3 : Vec F S1x128 .f32) (x4 : Vec F S64x4096 .f32) (x5 : Vec F S1x4096 .f32) (x6 : Vec F S64x1 .f32) (x7 : Vec F S1x1 .f32) (xs0 : Vec F S1x1 .f32)

/-- A middle point adds its partial sum to the scratch. -/
theorem pieceB (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 hc0 hc1 x0 x1 x2 x3 x4 x5 x6 x7 xs0 = k0_pay1 (tileVal x0 x1 x2 x3 x4 x5 x6 x7) xs0 := by
  have hz : (![0, 0] : Fin 2 → ℕ) = fun _ => 0 := by funext a; fin_cases a <;> rfl
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg10.read_unread,
    View.ld_unit_zero (S := S512x4096) hz, View.ld_unit_zero (S := S512x64) hz,
    View.ld_unit_zero (S := S4096x128) hz, View.ld_unit_zero (S := S1x128) hz,
    View.ld_unit_zero (S := S64x1) hz, View.ld_unit_zero (S := S1x1) hz]
  rfl

/-- The last point adds its partial sum to the scratch … -/
theorem pieceCs (hc0 : ¬cond0_0 i) (hc1 : cond0_1 i) :
    sout0_C_0 c i arg1 harg1 arg2 harg2 arg3 harg3 arg4 harg4 arg5 harg5 arg6 harg6 arg7 harg7 arg8 harg8 arg9 harg9 arg10 harg10 hc0 hc1 x0 x1 x2 x3 x4 x5 x6 x7 xs0 = k0_pay1 (tileVal x0 x1 x2 x3 x4 x5 x6 x7) xs0 := by
  have hz : (![0, 0] : Fin 2 → ℕ) = fun _ => 0 := by funext a; fin_cases a <;> rfl
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_C
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg10.read_unread,
    View.ld_unit_zero (S := S512x4096) hz, View.ld_unit_zero (S := S512x64) hz,
    View.ld_unit_zero (S := S4096x128) hz, View.ld_unit_zero (S := S1x128) hz,
    View.ld_unit_zero (S := S64x1) hz, View.ld_unit_zero (S := S1x1) hz]
  rfl

/-- … and copies the scratch, after the addition, to the output. -/
theorem pieceCo (hc0 : ¬cond0_0 i) (hc1 : cond0_1 i) :
    out0_C_8 c i arg1 harg1 arg2 harg2 arg3 harg3 arg4 harg4 arg5 harg5 arg6 harg6 arg7 harg7 arg8 harg8 arg9 harg9 arg10 harg10 hc0 hc1 x0 x1 x2 x3 x4 x5 x6 x7 xs0 = k0_pay1 (tileVal x0 x1 x2 x3 x4 x5 x6 x7) xs0 := by
  have hz : (![0, 0] : Fin 2 → ℕ) = fun _ => 0 := by funext a; fin_cases a <;> rfl
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg4.read_unread, harg5.read_unread,
    harg6.read_unread, harg7.read_unread, harg8.read_unread, harg10.read_unread,
    View.ld_unit_zero (S := S512x4096) hz, View.ld_unit_zero (S := S512x64) hz,
    View.ld_unit_zero (S := S4096x128) hz, View.ld_unit_zero (S := S1x128) hz,
    View.ld_unit_zero (S := S64x1) hz, View.ld_unit_zero (S := S1x1) hz]
  rfl

/-- The first point zeroes the scratch, then adds its partial sum to the zero. -/
theorem pieceAs (hc0 : cond0_0 i) (hc1 : ¬cond0_1 i) :
    sout0_A_0 c i arg1 harg1 arg2 harg2 arg3 harg3 arg4 harg4 arg5 harg5 arg6 harg6 arg7 harg7 arg8 harg8 arg9 harg9 arg10 harg10 hc0 hc1 x0 x1 x2 x3 x4 x5 x6 x7 = k0_pay1 (tileVal x0 x1 x2 x3 x4 x5 x6 x7) k0_pay2 := by
  have hz : (![0, 0] : Fin 2 → ℕ) = fun _ => 0 := by funext a; fin_cases a <;> rfl
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5 x6 x7)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread,
    harg6.read_unread, harg7.read_unread, harg8.read_unread, harg10.read_unread,
    View.ld_unit_zero (S := S512x4096) hz, View.ld_unit_zero (S := S512x64) hz,
    View.ld_unit_zero (S := S4096x128) hz, View.ld_unit_zero (S := S1x128) hz,
    View.ld_unit_zero (S := S64x1) hz, View.ld_unit_zero (S := S1x1) hz]
  rfl

end Cases

/-! ## The running sum, over the extended reals -/

section Run

variable (m : (ℓ : Loc nD τ sig) → Buf (Elt Ideal) ℓ)

/-- Every index of a `[1, 1]` array is `(0, 0)`. -/
theorem idx11 (i : S1x1.Idx) : i = ix2 (0 : Fin 1) (0 : Fin 1) :=
  funext fun a => Fin.ext (by
    match a with
    | ⟨0, _⟩ => have h : (i 0).val < 1 := (i 0).isLt; show (i 0).val = 0; omega
    | ⟨1, _⟩ => have h : (i 1).val < 1 := (i 1).isLt; show (i 1).val = 0; omega)

/-- Adding a partial sum `v` to a scratch that holds `a`. -/
theorem pay1_ideal (v w : FVec Ideal S1x1 .f32) (a : EReal) (hw : w = fun _ => a) :
    k0_pay1 v w = fun _ => a + v (ix2 (0 : Fin 1) (0 : Fin 1)) := by
  subst hw
  funext i
  show shapeCast S1x1 (addf (fun _ => a) v) shapeCasts_S1x1_S1x1 i = _
  rw [shapeCast_self, idx11 i]
  rfl

/-- The value the first point stores in the scratch is zero. -/
theorem pay2_ideal : (k0_pay2 (F := Ideal)) = fun _ => (0 : EReal) := by
  show shapeCast S1x1 (broadcast S1x1 (FloatOps.ofBits (F := Ideal) .f32 0x00000000#32)) shapeCasts_S1x1_S1x1 = _
  rw [shapeCast_self]
  funext i
  exact Ideal.ofBits_zero_f32

/-- Point `t`'s partial sum: the sum of the contributions of the 512 rows of tile `t`. -/
def P (c : Dev nD) (t : Fin cfg0.N) : EReal :=
  tileVal (F := Ideal) (iblk m c 0 t) (iblk m c 1 t) (iblk m c 2 t) (iblk m c 3 t) (iblk m c 4 t) (iblk m c 5 t) (iblk m c 6 t) (iblk m c 7 t) (ix2 (0 : Fin 1) (0 : Fin 1))

/-- The scratch after point `n`: zero plus the partial sums of the points up to `n`, added in order. -/
def acc (c : Dev nD) : (n : ℕ) → n < cfg0.N → EReal
  | 0, h => 0 + P m c ⟨0, h⟩
  | n + 1, h => acc c n (Nat.lt_of_succ_lt h) + P m c ⟨n + 1, h⟩

/-- What the scratch holds after point `n` is that running sum: by induction on the point. -/
theorem scratch_eq (c : Dev nD) : ∀ (n : ℕ) (h : n < cfg0.N), (outsAt0 m c n h).2 = fun _ => acc m c n h
  | 0, h => by
    have h0 : (⟨0, h⟩ : Fin cfg0.N).val % 32 = 0 := rfl
    have h1 : ¬(⟨0, h⟩ : Fin cfg0.N).val % 32 = 31 := (by decide : ¬(0 % 32 = 31))
    refine (congrArg Prod.snd (outsAt0_A m c ⟨0, h⟩ h0 h1)).trans ?_
    dsimp only
    refine (pieceAs (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) ((hcond0_0 ⟨0, h⟩).mpr h0) (fun hh => h1 ((hcond0_1 ⟨0, h⟩).mp hh))).trans ?_
    exact pay1_ideal _ _ 0 pay2_ideal
  | n + 1, h => by
    have hN : cfg0.N = 32 := N_0
    have h0 : ¬(⟨n + 1, h⟩ : Fin cfg0.N).val % 32 = 0 := by dsimp only; omega
    have ih := scratch_eq c n (Nat.lt_of_succ_lt h)
    by_cases h1 : (⟨n + 1, h⟩ : Fin cfg0.N).val % 32 = 31
    · refine (congrArg Prod.snd (outsAt0_C m c ⟨n + 1, h⟩ h0 h1)).trans ?_
      dsimp only
      refine (pieceCs (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c ((⟨n + 1, h⟩ : Fin cfg0.N).val - 1) (Nat.lt_of_le_of_lt (Nat.sub_le _ _) (⟨n + 1, h⟩ : Fin cfg0.N).isLt)).2 (fun hh => h0 ((hcond0_0 ⟨n + 1, h⟩).mp hh)) ((hcond0_1 ⟨n + 1, h⟩).mpr h1)).trans ?_
      exact pay1_ideal _ _ _ ih
    · refine (congrArg Prod.snd (outsAt0_B m c ⟨n + 1, h⟩ h0 h1)).trans ?_
      dsimp only
      refine (pieceB (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c ((⟨n + 1, h⟩ : Fin cfg0.N).val - 1) (Nat.lt_of_le_of_lt (Nat.sub_le _ _) (⟨n + 1, h⟩ : Fin cfg0.N).isLt)).2 (fun hh => h0 ((hcond0_0 ⟨n + 1, h⟩).mp hh)) (fun hh => h1 ((hcond0_1 ⟨n + 1, h⟩).mp hh))).trans ?_
      exact pay1_ideal _ _ _ ih

/-- The running sum is the sum of the partial sums of the points up to `n`. -/
theorem acc_eq (c : Dev nD) : ∀ (n : ℕ) (h : n < cfg0.N),
    acc m c n h = ∑ s ∈ Finset.range (n + 1), if hs : s < cfg0.N then P m c ⟨s, hs⟩ else 0
  | 0, h => by
    rw [Finset.sum_range_one, dif_pos h]
    exact zero_add _
  | n + 1, h => by
    rw [Finset.sum_range_succ, dif_pos h, ← acc_eq c n (Nat.lt_of_succ_lt h)]
    rfl

/-- After the last point it is the sum over all the points. -/
theorem acc_last (c : Dev nD) (h : 31 < cfg0.N) : acc m c 31 h = ∑ t : Fin cfg0.N, P m c t := by
  have hN : 31 + 1 = cfg0.N := N_0.symm
  rw [acc_eq, hN, ← Fin.sum_univ_eq_sum_range (fun s => if hs : s < cfg0.N then P m c ⟨s, hs⟩ else 0) cfg0.N]
  exact Finset.sum_congr rfl fun t _ => dif_pos t.isLt

/-- What the last point copies to the output's staging buffer is that sum. -/
theorem out_last (c : Dev nD) (t : Fin cfg0.N) (h1 : t.val % 32 = 31) :
    (outsAt0 m c t.val t.isLt).1 = fun _ => ∑ s : Fin cfg0.N, P m c s := by
  have hN : cfg0.N = 32 := N_0
  obtain ⟨n, hn⟩ := t
  have hn31 : n = 31 := by dsimp only at h1; omega
  subst hn31
  have h0 : ¬(⟨30 + 1, hn⟩ : Fin cfg0.N).val % 32 = 0 := (by decide : ¬((30 + 1) % 32 = 0))
  refine (congrArg Prod.fst (outsAt0_C m c ⟨30 + 1, hn⟩ h0 h1)).trans ?_
  dsimp only
  refine (pieceCo (F := Ideal) c (grid0.coords ⟨30 + 1, hn⟩) (ms0_0 ⟨30 + 1, hn⟩) (hs0_0 ⟨30 + 1, hn⟩) (ms0_1 ⟨30 + 1, hn⟩) (hs0_1 ⟨30 + 1, hn⟩) (ms0_2 ⟨30 + 1, hn⟩) (hs0_2 ⟨30 + 1, hn⟩) (ms0_3 ⟨30 + 1, hn⟩) (hs0_3 ⟨30 + 1, hn⟩) (ms0_4 ⟨30 + 1, hn⟩) (hs0_4 ⟨30 + 1, hn⟩) (ms0_5 ⟨30 + 1, hn⟩) (hs0_5 ⟨30 + 1, hn⟩) (ms0_6 ⟨30 + 1, hn⟩) (hs0_6 ⟨30 + 1, hn⟩) (ms0_7 ⟨30 + 1, hn⟩) (hs0_7 ⟨30 + 1, hn⟩) (ms0_8 ⟨30 + 1, hn⟩) (hs0_8 ⟨30 + 1, hn⟩) scM0_0 (Memref.isWhole_whole _) (iblk m c 0 ⟨30 + 1, hn⟩) (iblk m c 1 ⟨30 + 1, hn⟩) (iblk m c 2 ⟨30 + 1, hn⟩) (iblk m c 3 ⟨30 + 1, hn⟩) (iblk m c 4 ⟨30 + 1, hn⟩) (iblk m c 5 ⟨30 + 1, hn⟩) (iblk m c 6 ⟨30 + 1, hn⟩) (iblk m c 7 ⟨30 + 1, hn⟩) (outsAt0 m c ((⟨30 + 1, hn⟩ : Fin cfg0.N).val - 1) (Nat.lt_of_le_of_lt (Nat.sub_le _ _) (⟨30 + 1, hn⟩ : Fin cfg0.N).isLt)).2 (fun hh => h0 ((hcond0_0 ⟨30 + 1, hn⟩).mp hh)) ((hcond0_1 ⟨30 + 1, hn⟩).mpr h1)).trans ?_
  refine (pay1_ideal _ _ _ (scratch_eq m c 30 (Nat.lt_of_succ_lt hn))).trans ?_
  funext _
  exact acc_last m c hn

/-! ## The output array after the run -/

/-- The last point. -/
abbrev tLast : Fin cfg0.N := ⟨31, by rw [show cfg0.N = 32 from N_0]; decide⟩

/-- The output array after the run: its one entry is the sum of the 32 partial sums. -/
abbrev result (c : Dev nD) : Buf (Elt Ideal) ((c.tc : Thread nD τ).loc main_v18) :=
  fun _ => ((∑ t : Fin cfg0.N, P m c t : EReal))

/-- The one write-back, at the last point, writes it. -/
theorem flushed_eq (c : Dev nD) (t : Fin cfg0.N) (hf : (cfg0.win 8).flush t = true) :
    (dats m 0 c).flushed 8 t = ((cfg0.win 8).blk t).view.read (Elt Ideal) (result m c) := by
  have h1 : t.val % 32 = 31 := (flush0_8 t).mp hf
  show (cfg0.win 8).cut (grid0.coords t) ((dats m 0 c).after 8 t) = _
  rw [after0_8, out_last m c t h1]
  rfl

/-- So the output array ends holding it: the last point's block is the whole array. -/
theorem final_arr (c : Dev nD) : (dats m 0 c).arrAt 8 cfg0.N = result m c :=
  (dats m 0 c).arrAt_eq_of_cover 8 (result m c) (flushed_eq m c) fun i =>
    ⟨tLast, (flush0_8 tLast).mpr rfl, by
      show i ∈ ((View.whole main_v18).slice (win0_8.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_8.index tLast 0 * win0_8.size 0 ≤ (i 0 : Nat) ∧ (i 0 : Nat) < win0_8.index tLast 0 * win0_8.size 0 + win0_8.xsize (grid0.coords tLast) 0
                  rw [show win0_8.index tLast 0 * win0_8.size 0 = 0 from by decide +kernel, show win0_8.xsize (grid0.coords tLast) 0 = 1 from by decide +kernel]; omega
      | ⟨1, _⟩ => show win0_8.index tLast 1 * win0_8.size 1 ≤ (i 1 : Nat) ∧ (i 1 : Nat) < win0_8.index tLast 1 * win0_8.size 1 + win0_8.xsize (grid0.coords tLast) 1
                  rw [show win0_8.index tLast 1 * win0_8.size 1 = 0 from by decide +kernel, show win0_8.xsize (grid0.coords tLast) 1 = 1 from by decide +kernel]; omega⟩

/-- The output array's one entry after the run is the sum over the 32 points of the tiles' partial sums. -/
theorem final_eq (c : Dev nD) :
    ((dats m 0 c).arrAt 8 cfg0.N : S1x1.Idx → EReal) (ix2 (0 : Fin 1) (0 : Fin 1))
      = ∑ t : Fin cfg0.N, tileVal (F := Ideal) (iblk m c 0 t) (iblk m c 1 t) (iblk m c 2 t) (iblk m c 3 t) (iblk m c 4 t) (iblk m c 5 t) (iblk m c 6 t) (iblk m c 7 t) (ix2 (0 : Fin 1) (0 : Fin 1)) :=
  congrFun (final_arr m c) _

end Run

end Cert.KernelIdeal.Accum

end
-- ==== Proof.Tail.lean ====
/-
  The program's run with its result named, given the output array after the region.

  After its region the program has one host line: the region's one-by-one output array viewed as a one-entry vector,
  which is the program's result. So when the region leaves that array's one entry at the sum over the 32 points of each
  point's partial sum, every terminating run ends with the result at that sum — and with the ten arguments as launched,
  read out of the run's post exactly as the frame is.
-/
import proofs.«103976_j42202348650518_2_alg».proof.Proof.TileDef
import proofs.«103976_j42202348650518_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.Tail

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg)

/-! ## The one host line after the region -/

/-- The program's result is the region's one-by-one output array viewed as a one-entry vector: when that array's one
    entry is `S` after the region, the result is `S` at its one index. -/
theorem tail_result (c : Dev nD) (S : EReal)
    (hfin : ((Gen.dats m 0 c).arrAt 8 cfg0.N : S1x1.Idx → EReal) (ix2 (0 : Fin 1) (0 : Fin 1)) = S) :
    (Pipeline.afterTail₀ cfgs (Gen.dats m) 0 (Gen.V0 m) [Gen.hostOps1] c main_v19 : S1.Idx → EReal) = fun _ => S := by
  unfold Pipeline.afterTail₀
  show StableHlo.after Gen.hostOps1 _ (Proc.devRef .tc main_v19) = _
  after_results
  funext i
  obtain ⟨i0, rfl⟩ : ∃ i0 : Fin 1, i = ix1 i0 := ⟨i 0, eq_ix1 i⟩
  obtain rfl : i0 = 0 := Subsingleton.elim _ _
  show shapeCast S1 (Pipeline.withArrays spec0 c (Gen.V0 m c) (fun w => (Gen.dats m 0 c).arrAt w cfg0.N)
      (Proc.devRef .tc (Pipeline.arrRef spec0 8)) : S1x1.Idx → EReal) Facts₀.shapeCasts_S1x1_S1 (ix1 (0 : Fin 1)) = S
  rw [Pipeline.withArrays_arr spec0 launch0.win.arr_inj, shapeCast_1a_a_apply]
  exact hfin

/-! ## The run, with its result named -/

/-- Every weakly fair execution of the program from zero counters terminates with the result at the sum over the 32
    points of each point's partial sum, and the ten arguments unchanged — given that the region leaves its output array
    at that sum. -/
theorem run_of_final
    (hfin : ∀ c : Dev nD, ((Gen.dats m 0 c).arrAt 8 cfg0.N : S1x1.Idx → EReal) (ix2 (0 : Fin 1) (0 : Fin 1))
      = ∑ t : Fin cfg0.N, Tile.tileVal (F := Ideal) (Gen.iblk m c 0 t) (Gen.iblk m c 1 t) (Gen.iblk m c 2 t) (Gen.iblk m c 3 t) (Gen.iblk m c 4 t) (Gen.iblk m c 5 t) (Gen.iblk m c 6 t) (Gen.iblk m c 7 t) (ix2 (0 : Fin 1) (0 : Fin 1))) :
    θ_run (defs (F := Ideal)) (onTc (τ := τ) (main (F := Ideal))) ⟨m, fun _ => 0, ρ⟩ (fun r => ∀ c : Dev nD,
      r.2.mem ((c.tc : Thread nD τ).loc main_v19) = (fun _ => ∑ t : Fin cfg0.N, Tile.tileVal (F := Ideal) (Gen.iblk m c 0 t) (Gen.iblk m c 1 t) (Gen.iblk m c 2 t) (Gen.iblk m c 3 t) (Gen.iblk m c 4 t) (Gen.iblk m c 5 t) (Gen.iblk m c 6 t) (Gen.iblk m c 7 t) (ix2 (0 : Fin 1) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).2 main_v19 (Pipeline.mem_restRefs_of main_v19 (by decide) (by decide))).trans (tail_result m c _ (hfin c)),
      ((h c).1 0).trans (((Gen.dats m 0 c).arrAt_in 0 rfl _).trans ((Gen.A_eq m c 0).trans (Gen.V_main_arg0 m c))),
      ((h c).1 1).trans (((Gen.dats m 0 c).arrAt_in 1 rfl _).trans ((Gen.A_eq m c 1).trans (Gen.V_main_arg1 m c))),
      (((h c).2 main_arg2 (Pipeline.mem_restRefs_of main_arg2 (by decide) (by decide))).trans (Gen.W_main_arg2 m (Gen.dats m) c)),
      (((h c).2 main_arg3 (Pipeline.mem_restRefs_of main_arg3 (by decide) (by decide))).trans (Gen.W_main_arg3 m (Gen.dats m) c)),
      (((h c).2 main_arg4 (Pipeline.mem_restRefs_of main_arg4 (by decide) (by decide))).trans (Gen.W_main_arg4 m (Gen.dats m) c)),
      (((h c).2 main_arg5 (Pipeline.mem_restRefs_of main_arg5 (by decide) (by decide))).trans (Gen.W_main_arg5 m (Gen.dats m) c)),
      ((h c).1 4).trans (((Gen.dats m 0 c).arrAt_in 4 rfl _).trans ((Gen.A_eq m c 4).trans (Gen.V_main_arg6 m c))),
      (((h c).2 main_arg7 (Pipeline.mem_restRefs_of main_arg7 (by decide) (by decide))).trans (Gen.W_main_arg7 m (Gen.dats m) c)),
      ((h c).1 6).trans (((Gen.dats m 0 c).arrAt_in 6 rfl _).trans ((Gen.A_eq m c 6).trans (Gen.V_main_arg8 m c))),
      (((h c).2 main_arg9 (Pipeline.mem_restRefs_of main_arg9 (by decide) (by decide))).trans (Gen.W_main_arg9 m (Gen.dats m) c))⟩)
    (Gen.run_main m ρ)

end Cert.KernelIdeal.Tail

end
-- ==== Proof.lean ====
/-
  The kernel and its reference compute one number, the sum over 16384 data rows of each row's contribution
  log q(z|x) − log p(x|z) − log p(z) to a variational bound (Proof/Spec.lean writes the row's contribution and the
  total once, over the extended reals).

  The reference computes it row by row and sums (Proof/RefRead.lean). The kernel visits the rows in 32 blocks of
  512: it packs the encoder's mean and scale projections into one matrix before the grid (Proof/Packed.lean reads
  the packed arrays back), computes each block's partial sum with the squared reconstruction error taken over
  eight windows of 512 columns (Proof/Tile.lean, over Proof/KOps.lean and Proof/TileDef.lean), adds the partial
  sums into one accumulator from zero and copies it out at the last block (Proof/Accum.lean), and the program
  returns that number reshaped (Proof/Tail.lean); the blocks are the arrays' rows and 32 · 512 = 16384
  (Proof/Blocks.lean). Both sides are the same sums in another grouping, and sums of extended reals may be
  regrouped freely, so no finiteness of the inputs is used.
-/
import proofs.«103976_j42202348650518_2_alg».proof.Defs
import proofs.«103976_j42202348650518_2_alg».proof.Proof.Gen.Kernel
import proofs.«103976_j42202348650518_2_alg».proof.Proof.Gen.Kernel.Frame
import proofs.«103976_j42202348650518_2_alg».proof.Proof.Gen.KernelIdeal
import proofs.«103976_j42202348650518_2_alg».proof.Proof.Gen.KernelIdeal.Frame
import proofs.«103976_j42202348650518_2_alg».proof.Proof.Gen.ReferenceIdeal
import proofs.«103976_j42202348650518_2_alg».proof.Proof.Gen.ReferenceIdeal.Run
import proofs.«103976_j42202348650518_2_alg».proof.Proof.Gen.ReferenceIdeal.Read
import proofs.«103976_j42202348650518_2_alg».proof.Proof.Gen.Pre_finite_inputs
import proofs.«103976_j42202348650518_2_alg».proof.Proof.Spec
import proofs.«103976_j42202348650518_2_alg».proof.Proof.RefRead
import proofs.«103976_j42202348650518_2_alg».proof.Proof.Tile
import proofs.«103976_j42202348650518_2_alg».proof.Proof.Blocks
import proofs.«103976_j42202348650518_2_alg».proof.Proof.Accum
import proofs.«103976_j42202348650518_2_alg».proof.Proof.Tail
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's result: the 32 grid points' partial sums added up are the sum over all 16384 rows. -/
theorem kernel_total (m : (ℓ : Loc Cert.KernelIdeal.nD Cert.KernelIdeal.τ Cert.KernelIdeal.sig) → Buf (Elt Ideal) ℓ) (c : Dev Cert.KernelIdeal.nD) :
    (∑ t : Fin Cert.KernelIdeal.cfg0.N, Cert.KernelIdeal.Tile.tileVal (F := Ideal) (Cert.KernelIdeal.Gen.iblk m c 0 t) (Cert.KernelIdeal.Gen.iblk m c 1 t) (Cert.KernelIdeal.Gen.iblk m c 2 t) (Cert.KernelIdeal.Gen.iblk m c 3 t) (Cert.KernelIdeal.Gen.iblk m c 4 t) (Cert.KernelIdeal.Gen.iblk m c 5 t) (Cert.KernelIdeal.Gen.iblk m c 6 t) (Cert.KernelIdeal.Gen.iblk m c 7 t) (ix2 (0 : Fin 1) (0 : Fin 1)))
      = Cert.Spec.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  refine Eq.trans (Finset.sum_congr rfl fun t _ => ?_) (Cert.KernelIdeal.Blocks.blocks_total m c)
  exact Cert.KernelIdeal.Tile.tile_eq _ _ _ _ _ _ _ _

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's total of arguments that agree. -/
theorem algebraic : Cert.algebraic_KernelIdeal_ReferenceIdeal := by
  intro m ρ m' ρ' _ hagree
  refine ⟨fun c => fun _ => Cert.Spec.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩) (Cert.KernelIdeal.Tail.run_of_final m ρ (Cert.KernelIdeal.Accum.final_eq m))
    exact funext fun _ => kernel_total m c
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v59_eq, Cert.RefRead.ref_total]
    obtain ⟨h0, h1, h2, h3, h4, h5, h6, h7, h8, h9⟩ := hagree c
    rw [h0, h1, h2, h3, h4, h5, h6, h7, h8, h9]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
